-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S8192x1024 : Shape := ⟨2, ![8192, 1024]⟩
abbrev S8192x16x64 : Shape := ⟨3, ![8192, 16, 64]⟩
abbrev S256x1024 : Shape := ⟨2, ![256, 1024]⟩
abbrev S256x16x64 : Shape := ⟨3, ![256, 16, 64]⟩
abbrev S256x3x16x64 : Shape := ⟨4, ![256, 3, 16, 64]⟩
abbrev S256x3072 : Shape := ⟨2, ![256, 3072]⟩
abbrev S32x1x16x64 : Shape := ⟨4, ![32, 1, 16, 64]⟩
abbrev S32x16x64 : Shape := ⟨3, ![32, 16, 64]⟩
abbrev S32x16x1x64 : Shape := ⟨4, ![32, 16, 1, 64]⟩
abbrev S32x16x16x64 : Shape := ⟨4, ![32, 16, 16, 64]⟩
abbrev S32x16x16 : Shape := ⟨3, ![32, 16, 16]⟩
abbrev S32x16 : Shape := ⟨2, ![32, 16]⟩
abbrev S32x16x1 : Shape := ⟨3, ![32, 16, 1]⟩
abbrev S32x16x16x1 : Shape := ⟨4, ![32, 16, 16, 1]⟩
abbrev S4x2048x16x64 : Shape := ⟨4, ![4, 2048, 16, 64]⟩
abbrev S4x16x2048x64 : Shape := ⟨4, ![4, 16, 2048, 64]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S8192x1024, .f32⟩
  | .hbm, ⟨4, _⟩ => ⟨S3072x1024, .bf16⟩
  | .hbm, ⟨5, _⟩ => ⟨S1024x1024, .bf16⟩
  | .hbm, ⟨6, _⟩ => ⟨S8192x16x64, .bf16⟩
  | .hbm, ⟨7, _⟩ => ⟨S4x2048x16x64, .bf16⟩
  | .hbm, ⟨8, _⟩ => ⟨S4x16x2048x64, .bf16⟩
  | .hbm, ⟨9, _⟩ => ⟨S4x2048x1024, .bf16⟩
  | .hbm, ⟨10, _⟩ => ⟨S8192x1024, .bf16⟩
  | .hbm, ⟨11, _⟩ => ⟨S8192x1024, .f32⟩
  | .hbm, ⟨12, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S256x16x64, .bf16⟩
  | .local _ .vmem, ⟨4, _⟩ => ⟨S256x16x64, .bf16⟩
  | .local _ .vmem, ⟨5, _⟩ => ⟨S256x3x16x64, .f32⟩
  | .local _ .vmem, ⟨6, _⟩ => ⟨S256x16x64, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v14 : BitVec 32 := Scalar.muli arg6 c1_i32_14
  let v15 : BitVec 32 := Scalar.addi c0_i32_15 v14
  let c32_i32 : BitVec 32 := 32#32
  let v16 : BitVec 32 := Scalar.muli v15 c32_i32
  v16
def k0_off1 (k0_t1 : Fin k0_t1_loop.trips) : Fin 4 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v14 : BitVec 32 := Scalar.muli arg6 c1_i32_14
  let v15 : BitVec 32 := Scalar.addi c0_i32_15 v14
  let c32_i32 : BitVec 32 := 32#32
  let v16 : BitVec 32 := Scalar.muli v15 c32_i32
  let v17 : BitVec 32 := v16
  let v18 : Index := Scalar.indexCast v17
  let c0_16 : Index := 0#32
  let c0_17 : Index := 0#32
  let c0_18 : Index := 0#32
  ![v18.toNat, 0, 0, 0]
def k0_off2 (k0_t1 : Fin k0_t1_loop.trips) : Fin 4 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v14 : BitVec 32 := Scalar.muli arg6 c1_i32_14
  let v15 : BitVec 32 := Scalar.addi c0_i32_15 v14
  let c32_i32 : BitVec 32 := 32#32
  let v16 : BitVec 32 := Scalar.muli v15 c32_i32
  let v17 : BitVec 32 := v16
  let v21 : Index := Scalar.indexCast v17
  let c1 : Index := 1#32
  let c0_19 : Index := 0#32
  let c0_20 : Index := 0#32
  ![v21.toNat, 1, 0, 0]
def k0_off3 (k0_t1 : Fin k0_t1_loop.trips) : Fin 4 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v14 : BitVec 32 := Scalar.muli arg6 c1_i32_14
  let v15 : BitVec 32 := Scalar.addi c0_i32_15 v14
  let c32_i32 : BitVec 32 := 32#32
  let v16 : BitVec 32 := Scalar.muli v15 c32_i32
  let v17 : BitVec 32 := v16
  let v24 : Index := Scalar.indexCast v17
  let c2 : Index := 2#32
  let c0_21 : Index := 0#32
  let c0_22 : Index := 0#32
  ![v24.toNat, 2, 0, 0]
def k0_off4 (k0_t1 : Fin k0_t1_loop.trips) : Fin 3 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v14 : BitVec 32 := Scalar.muli arg6 c1_i32_14
  let v15 : BitVec 32 := Scalar.addi c0_i32_15 v14
  let c32_i32 : BitVec 32 := 32#32
  let v16 : BitVec 32 := Scalar.muli v15 c32_i32
  let v17 : BitVec 32 := v16
  let v50 : Index := Scalar.indexCast v17
  let c0_28 : Index := 0#32
  let c0_29 : Index := 0#32
  ![v50.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x2048x1024_S8192x1024 : S4x2048x1024.ShapeCasts S8192x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  shapeCasts_S256x3072_S256x3x16x64 : S256x3072.ShapeCasts S256x3x16x64
  inb_S256x3x16x64_S256x3x16x64_0_0_0_0 : ∀ a, (![0, 0, 0, 0] : Fin 4 → Nat) a + S256x3x16x64.size a ≤ S256x3x16x64.size a
  h_S256x3x16x64 : 0 < S256x3x16x64.numel
  shapeCasts_S256x3x16x64_S256x3x16x64 : S256x3x16x64.ShapeCasts S256x3x16x64
  h_S32x1x16x64 : 0 < S32x1x16x64.numel
  shapeCasts_S32x1x16x64_S32x16x64 : S32x1x16x64.ShapeCasts S32x16x64
  shapeCasts_S32x16x64_S32x16x1x64 : S32x16x64.ShapeCasts S32x16x1x64
  shapeCasts_S32x16x64_S32x1x16x64 : S32x16x64.ShapeCasts S32x1x16x64
  broadcasts_S32x16x1x64_S32x16x16x64 : S32x16x1x64.Broadcasts S32x16x16x64
  broadcasts_S32x1x16x64_S32x16x16x64 : S32x1x16x64.Broadcasts S32x16x16x64
  reduces_S32x16x16x64_S32x16x16 : S32x16x16x64.Reduces [3] S32x16x16
  reduces_S32x16x16_S32x16 : S32x16x16.Reduces [2] S32x16
  shapeCasts_S32x16_S32x16x1 : S32x16.ShapeCasts S32x16x1
  broadcasts_S32x16x1_S32x16x16 : S32x16x1.Broadcasts S32x16x16
  shapeCasts_S32x16x16_S32x16x16x1 : S32x16x16.ShapeCasts S32x16x16x1
  broadcasts_S32x16x16x1_S32x16x16x64 : S32x16x16x1.Broadcasts S32x16x16x64
  reduces_S32x16x16x64_S32x16x64 : S32x16x16x64.Reduces [2] S32x16x64
  h_S32x16x64 : 0 < S32x16x64.numel
  shapeCasts_S32x16x64_S32x16x64 : S32x16x64.ShapeCasts S32x16x64
  inb_S256x16x64_S256x16x64_0_0_0 : ∀ a, (![0, 0, 0] : Fin 3 → Nat) a + S256x16x64.size a ≤ S256x16x64.size a
  h_S256x16x64 : 0 < S256x16x64.numel
  packedbf16_S256x16x64_S256x16x64_0_0_0 : (Rect.unit (s := S256x16x64) ![0, 0, 0] S256x16x64.size inb_S256x16x64_S256x16x64_0_0_0).PackedRows (EltTy.packing .bf16)
  shapeCasts_S8192x16x64_S4x2048x16x64 : S8192x16x64.ShapeCasts S4x2048x16x64
  transposes_S4x2048x16x64_S4x16x2048x64_0_2_1_3 : S4x2048x16x64.Transposes [0, 2, 1, 3] S4x16x2048x64
  shapeCasts_S4x16x2048x64_S4x2048x1024 : S4x16x2048x64.ShapeCasts S4x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S256x1024_S3072x1024_S256x3072_1_1_0_0_n_n_wf : DotDims.WF S256x1024 S3072x1024 S256x3072 [1] [1] [0] [0] [] []
  dot_S1024x1024_S1024x1024_S1024x1024_1_1_0_0_n_n_wf : DotDims.WF S1024x1024 S1024x1024 S1024x1024 [1] [1] [0] [0] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x1x16x64.size a ≤ S256x3x16x64.size a
  k0_off2_inb : ∀ k0_t1 : Fin k0_t1_loop.trips, ∀ a, (k0_off2 k0_t1) a + S32x1x16x64.size a ≤ S256x3x16x64.size a
  k0_off3_inb : ∀ k0_t1 : Fin k0_t1_loop.trips, ∀ a, (k0_off3 k0_t1) a + S32x1x16x64.size a ≤ S256x3x16x64.size a
  k0_off4_inb : ∀ k0_t1 : Fin k0_t1_loop.trips, ∀ a, (k0_off4 k0_t1) a + S32x16x64.size a ≤ S256x16x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x64.size a ≤ S8192x16x64.size a
  hwx0_2 : ∀ i : grid0.Coords, EltTy.bits .bf16 = 32 ∨ (Rect.block (s := S8192x16x64) S256x16x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x16x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x3x16x64 : Shape := ⟨5, ![4, 2048, 3, 16, 64]⟩
abbrev S4x3x2048x16x64 : Shape := ⟨5, ![4, 3, 2048, 16, 64]⟩
abbrev S4x1x2048x16x64 : Shape := ⟨5, ![4, 1, 2048, 16, 64]⟩
abbrev S4x2048x16x64 : Shape := ⟨4, ![4, 2048, 16, 64]⟩
abbrev S4x2048x16x16 : Shape := ⟨4, ![4, 2048, 16, 16]⟩
abbrev S_ : Shape := ⟨0, ![]⟩
abbrev S4x2048x16 : Shape := ⟨3, ![4, 2048, 16]⟩
abbrev S4x2048x16x1 : Shape := ⟨4, ![4, 2048, 16, 1]⟩
abbrev S4x16x2048x64 : Shape := ⟨4, ![4, 16, 2048, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x3x16x64, .f32⟩
  | .hbm, ⟨5, _⟩ => ⟨S4x3x2048x16x64, .f32⟩
  | .hbm, ⟨6, _⟩ => ⟨S4x1x2048x16x64, .f32⟩
  | .hbm, ⟨7, _⟩ => ⟨S4x2048x16x64, .f32⟩
  | .hbm, ⟨8, _⟩ => ⟨S4x1x2048x16x64, .f32⟩
  | .hbm, ⟨9, _⟩ => ⟨S4x2048x16x64, .f32⟩
  | .hbm, ⟨10, _⟩ => ⟨S4x1x2048x16x64, .f32⟩
  | .hbm, ⟨11, _⟩ => ⟨S4x2048x16x64, .f32⟩
  | .hbm, ⟨12, _⟩ => ⟨S4x2048x16x16, .f32⟩
  | .hbm, ⟨13, _⟩ => ⟨S_, .f32⟩
  | .hbm, ⟨14, _⟩ => ⟨S4x2048x16x16, .f32⟩
  | .hbm, ⟨15, _⟩ => ⟨S4x2048x16x16, .f32⟩
  | .hbm, ⟨16, _⟩ => ⟨S_, .f32⟩
  | .hbm, ⟨17, _⟩ => ⟨S4x2048x16, .f32⟩
  | .hbm, ⟨18, _⟩ => ⟨S_, .f32⟩
  | .hbm, ⟨19, _⟩ => ⟨S4x2048x16, .f32⟩
  | .hbm, ⟨20, _⟩ => ⟨S4x2048x16, .f32⟩
  | .hbm, ⟨21, _⟩ => ⟨S4x2048x16x1, .f32⟩
  | .hbm, ⟨22, _⟩ => ⟨S4x2048x16x16, .f32⟩
  | .hbm, ⟨23, _⟩ => ⟨S4x2048x16x16, .f32⟩
  | .hbm, ⟨24, _⟩ => ⟨S4x2048x16x16, .f32⟩
  | .hbm, ⟨25, _⟩ => ⟨S_, .f32⟩
  | .hbm, ⟨26, _⟩ => ⟨S4x2048x16, .f32⟩
  | .hbm, ⟨27, _⟩ => ⟨S4x2048x16x1, .f32⟩
  | .hbm, ⟨28, _⟩ => ⟨S4x2048x16x16, .f32⟩
  | .hbm, ⟨29, _⟩ => ⟨S4x2048x16x16, .f32⟩
  | .hbm, ⟨30, _⟩ => ⟨S4x2048x16x64, .f32⟩
  | .hbm, ⟨31, _⟩ => ⟨S4x16x2048x64, .f32⟩
  | .hbm, ⟨32, _⟩ => ⟨S4x2048x1024, .f32⟩
  | .hbm, ⟨33, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S4x3x2048x16x64_0_2_1_3_4 : S4x2048x3x16x64.Transposes [0, 2, 1, 3, 4] S4x3x2048x16x64
  slices_S4x3x2048x16x64_S4x1x2048x16x64_0_0_0_0_0 : S4x3x2048x16x64.Slices ![0, 0, 0, 0, 0] S4x1x2048x16x64
  shapeCasts_S4x1x2048x16x64_S4x2048x16x64 : S4x1x2048x16x64.ShapeCasts S4x2048x16x64
  slices_S4x3x2048x16x64_S4x1x2048x16x64_0_1_0_0_0 : S4x3x2048x16x64.Slices ![0, 1, 0, 0, 0] S4x1x2048x16x64
  slices_S4x3x2048x16x64_S4x1x2048x16x64_0_2_0_0_0 : S4x3x2048x16x64.Slices ![0, 2, 0, 0, 0] S4x1x2048x16x64
  bcast_S_S4x2048x16x16 : S_.BroadcastsInDim S4x2048x16x16 (![] : Fin 0 → Fin S4x2048x16x16.rank)
  reducesTo_S4x2048x16x16_S4x2048x16_d3 : S4x2048x16x16.ReducesTo [3] S4x2048x16
  h_S_ : 0 < S_.numel
  bcast_S_S4x2048x16 : S_.BroadcastsInDim S4x2048x16 (![] : Fin 0 → Fin S4x2048x16.rank)
  bcast_S4x2048x16_S4x2048x16x1_0_1_2 : S4x2048x16.BroadcastsInDim S4x2048x16x1 (![0, 1, 2] : Fin 3 → Fin S4x2048x16x1.rank)
  bcast_S4x2048x16x1_S4x2048x16x16_0_1_2_3 : S4x2048x16x1.BroadcastsInDim S4x2048x16x16 (![0, 1, 2, 3] : Fin 4 → Fin S4x2048x16x16.rank)
  transposes_S4x2048x16x64_S4x16x2048x64_0_2_1_3 : S4x2048x16x64.Transposes [0, 2, 1, 3] S4x16x2048x64
  shapeCasts_S4x16x2048x64_S4x2048x1024 : S4x16x2048x64.ShapeCasts S4x2048x1024
  dot_S4x2048x1024_S3072x1024_S4x2048x3072_2_1_01_0_n_n_wf : DotDims.WF S4x2048x1024 S3072x1024 S4x2048x3072 [2] [1] [0, 1] [0] [] []
  dot_S4x2048x16x64_S4x2048x16x64_S4x2048x16x16_3_3_2_2_01_01_wf : DotDims.WF S4x2048x16x64 S4x2048x16x64 S4x2048x16x16 [3] [3] [2] [2] [0, 1] [0, 1]
  dot_S4x2048x16x16_S4x2048x16x64_S4x2048x16x64_3_2_2_3_01_01_wf : DotDims.WF S4x2048x16x16 S4x2048x16x64 S4x2048x16x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x16x64_S4x2048x16x64_S4x2048x16x16_3_3_2_2_01_01 : DotDims S4x2048x16x64 S4x2048x16x64 S4x2048x16x16 where
  lhsContracting := [3]
  rhsContracting := [3]
  lhsNonContracting := [2]
  rhsNonContracting := [2]
  lhsBatch := [0, 1]
  rhsBatch := [0, 1]
  wf := dot_S4x2048x16x64_S4x2048x16x64_S4x2048x16x16_3_3_2_2_01_01_wf
def dot_S4x2048x16x16_S4x2048x16x64_S4x2048x16x64_3_2_2_3_01_01 : DotDims S4x2048x16x16 S4x2048x16x64 S4x2048x16x64 where
  lhsContracting := [3]
  rhsContracting := [2]
  lhsNonContracting := [2]
  rhsNonContracting := [3]
  lhsBatch := [0, 1]
  rhsBatch := [0, 1]
  wf := dot_S4x2048x16x16_S4x2048x16x64_S4x2048x16x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KernelLoop.lean ====
/-
  What the body's counted loop leaves in its second scratch buffer, whatever that buffer held before.

  Trip k of the eight loads three slabs [32, 1, 16, 64] of the first scratch buffer at rows 32·k … 32·k + 31 (the query, key and
  value families) and stores one [32, 16, 64] block, a function of those three slabs alone, at rows 32·k … 32·k + 31 of
  the second scratch buffer.  So the eight stores are blocks of ONE function of the first buffer's contents — row y of
  it is row y mod 32 of chunk y / 32 — and between them they cover all 256 rows: after the loop the second buffer reads
  as that function at every index, and nothing of what it held at loop entry is left.
-/
import proofs.«172339_j14577119003257_2_alg».proof.Proof.Gen.Kernel.Loops
import Idealize.ShloMosaic.Lib.Pipeline.Value
import Idealize.ShloMosaic.Lib.Pipeline.FrameBody
import Idealize.ShloMosaic.Lib.ValueIdx

-- the recursion over the trips carries every operand of the body: its equations need a deeper traversal than the default
set_option maxRecDepth 8192
set_option maxHeartbeats 4000000

noncomputable section

namespace Cert.Kernel.Loop0

open Cert.Kernel Cert.Kernel.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes eight trips. -/
theorem trips_eq : k0_t1_loop.trips = 8 := by decide

/-- What trip k stores: the chunk's arithmetic of the three slabs it loads from the first scratch buffer. -/
def chunkPay (arg4 : Memref sig .tc .vmem S256x3x16x64 .f32) (X : BufTy.Contents (Elt F) arg4.view.ty) (k : Fin k0_t1_loop.trips) :
    Vec F S32x16x64 .f32 :=
  k0_pay3
    (arg4.view.readAt (Elt F) (Rect.unit (s := S256x3x16x64) (k0_off1 k) S32x1x16x64.size (k0_off1_inb k)).toLoadRect X)
    (arg4.view.readAt (Elt F) (Rect.unit (s := S256x3x16x64) (k0_off2 k) S32x1x16x64.size (k0_off2_inb k)).toLoadRect X)
    (arg4.view.readAt (Elt F) (Rect.unit (s := S256x3x16x64) (k0_off3 k) S32x1x16x64.size (k0_off3_inb k)).toLoadRect X)

/-- One trip's pieces: the one store, whatever the second buffer holds. -/
theorem tripL_eq (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (k : Fin k0_t1_loop.trips) (f : BufTy.Contents (Elt F) arg5.view.ty) :
    tripL_k0_t1 (F := F) 𝒱 c bd i arg1 harg1 arg2 harg2 arg3 harg3 arg4 harg4 arg5 harg5 X k f
      = [⟨Rect.unit (s := S256x16x64) (k0_off4 k) S32x16x64.size (k0_off4_inb k), chunkPay arg4 X k⟩] := by
  unfold tripL_k0_t1 trip_k0_t1
  dsimp only
  sl_unfold_run_names
  rfl

/-- The second scratch buffer after the loop: row y is row y mod 32 of chunk y / 32. -/
def afterLoop (arg4 : Memref sig .tc .vmem S256x3x16x64 .f32) (X : BufTy.Contents (Elt F) arg4.view.ty) :
    S256x16x64.Idx → Elt F .f32 := fun y =>
  chunkPay arg4 X ⟨(y 0).val / 32, by rw [trips_eq]; have h : (y 0).val < 256 := (y 0).isLt; omega⟩
    (ix3 (⟨(y 0).val % 32, Nat.mod_lt _ (by norm_num)⟩ : Fin 32) (⟨(y 1).val, (y 1).isLt⟩ : Fin 16) (⟨(y 2).val, (y 2).isLt⟩ : Fin 64))

/-- Every store of the trips before n is a block of that one function. -/
theorem pieces_block (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    ∀ n, n ≤ k0_t1_loop.trips → ∀ p ∈ pb_k0_t1 (F := F) 𝒱 c bd i arg1 harg1 arg2 harg2 arg3 harg3 arg4 harg4 arg5 harg5 X G n,
      ∀ x : p.1.shape.Idx, p.2 x = afterLoop arg4 X (p.1.emb x)
  | 0, _, p, hp, _ => absurd hp (by simp [pb_k0_t1])
  | n + 1, hn, p, hp, x => by
    have hk : n < k0_t1_loop.trips := hn
    rw [show n + 1 = (⟨n, hk⟩ : Fin k0_t1_loop.trips).val + 1 from rfl, pb_k0_t1_succ, tripL_eq] at hp
    rcases List.mem_append.mp hp with h | h
    · obtain rfl := List.mem_singleton.mp h
      have hx0 : (x 0).val < 32 := (x 0).isLt
      have o0 : k0_off4 ⟨n, hk⟩ 0 = 32 * n := congrFun (k0_off4_eq ⟨n, hk⟩) 0
      have o1 : k0_off4 ⟨n, hk⟩ 1 = 0 := congrFun (k0_off4_eq ⟨n, hk⟩) 1
      have o2 : k0_off4 ⟨n, hk⟩ 2 = 0 := congrFun (k0_off4_eq ⟨n, hk⟩) 2
      have e0 : ((Rect.unit (s := S256x16x64) (k0_off4 ⟨n, hk⟩) S32x16x64.size (k0_off4_inb ⟨n, hk⟩)).emb x 0).val = 32 * n + (x 0).val := by
        rw [Rect.emb_apply]; show k0_off4 ⟨n, hk⟩ 0 + 1 * (x 0).val = _; omega
      have e1 : ((Rect.unit (s := S256x16x64) (k0_off4 ⟨n, hk⟩) S32x16x64.size (k0_off4_inb ⟨n, hk⟩)).emb x 1).val = (x 1).val := by
        rw [Rect.emb_apply]; show k0_off4 ⟨n, hk⟩ 1 + 1 * (x 1).val = _; omega
      have e2 : ((Rect.unit (s := S256x16x64) (k0_off4 ⟨n, hk⟩) S32x16x64.size (k0_off4_inb ⟨n, hk⟩)).emb x 2).val = (x 2).val := by
        rw [Rect.emb_apply]; show k0_off4 ⟨n, hk⟩ 2 + 1 * (x 2).val = _; omega
      have key : ∀ (k' : Fin k0_t1_loop.trips) (x' : S32x16x64.Idx), k' = ⟨n, hk⟩ → x' = x →
          chunkPay arg4 X ⟨n, hk⟩ x = chunkPay arg4 X k' x' := by rintro _ _ rfl rfl; rfl
      show chunkPay arg4 X ⟨n, hk⟩ x = afterLoop arg4 X _
      unfold afterLoop
      refine key _ _ (Fin.ext ?_) (funext fun a => Fin.ext ?_)
      · show ((Rect.unit (s := S256x16x64) (k0_off4 ⟨n, hk⟩) S32x16x64.size (k0_off4_inb ⟨n, hk⟩)).emb x 0).val / 32 = n
        rw [e0]; omega
      · match a with
        | ⟨0, _⟩ =>
          show ((Rect.unit (s := S256x16x64) (k0_off4 ⟨n, hk⟩) S32x16x64.size (k0_off4_inb ⟨n, hk⟩)).emb x 0).val % 32 = (x 0).val
          rw [e0]; omega
        | ⟨1, _⟩ => exact e1
        | ⟨2, _⟩ => exact e2
    · exact pieces_block 𝒱 c bd i arg1 harg1 arg2 harg2 arg3 harg3 arg4 harg4 arg5 harg5 X G n (Nat.le_of_lt hk) p h x

/-- The stores of the trips before n cover the first 32·n rows. -/
theorem pieces_cover (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    ∀ n, n ≤ k0_t1_loop.trips → ∀ y : S256x16x64.Idx, (y 0).val < 32 * n →
      ∃ p ∈ pb_k0_t1 (F := F) 𝒱 c bd i arg1 harg1 arg2 harg2 arg3 harg3 arg4 harg4 arg5 harg5 X G n, y ∈ p.1.set
  | 0, _, y, hy => absurd hy (by omega)
  | n + 1, hn, y, hy => by
    have hk : n < k0_t1_loop.trips := hn
    rw [show n + 1 = (⟨n, hk⟩ : Fin k0_t1_loop.trips).val + 1 from rfl, pb_k0_t1_succ, tripL_eq]
    by_cases h : (y 0).val < 32 * n
    · obtain ⟨p, hp, hy'⟩ := pieces_cover 𝒱 c bd i arg1 harg1 arg2 harg2 arg3 harg3 arg4 harg4 arg5 harg5 X G n (Nat.le_of_lt hk) y h
      exact ⟨p, List.mem_append_right _ hp, hy'⟩
    · refine ⟨_, List.mem_append_left _ (List.mem_singleton_self _), ?_⟩
      have h1 : (y 1).val < 16 := (y 1).isLt
      have h2 : (y 2).val < 64 := (y 2).isLt
      show y ∈ (Rect.unit (s := S256x16x64) (k0_off4 ⟨n, hk⟩) S32x16x64.size (k0_off4_inb ⟨n, hk⟩)).set
      have o0 : k0_off4 ⟨n, hk⟩ 0 = 32 * n := congrFun (k0_off4_eq ⟨n, hk⟩) 0
      have o1 : k0_off4 ⟨n, hk⟩ 1 = 0 := congrFun (k0_off4_eq ⟨n, hk⟩) 1
      have o2 : k0_off4 ⟨n, hk⟩ 2 = 0 := congrFun (k0_off4_eq ⟨n, hk⟩) 2
      rw [Rect.mem_set_unit]
      intro a
      match a with
      | ⟨0, _⟩ => show k0_off4 ⟨n, hk⟩ 0 ≤ (y 0).val ∧ (y 0).val < k0_off4 ⟨n, hk⟩ 0 + 32; omega
      | ⟨1, _⟩ => show k0_off4 ⟨n, hk⟩ 1 ≤ (y 1).val ∧ (y 1).val < k0_off4 ⟨n, hk⟩ 1 + 16; omega
      | ⟨2, _⟩ => show k0_off4 ⟨n, hk⟩ 2 ≤ (y 2).val ∧ (y 2).val < k0_off4 ⟨n, hk⟩ 2 + 64; omega

/-- AFTER THE LOOP the second scratch buffer reads as the one function of the first buffer's contents, whatever it held at
    loop entry. -/
theorem scratch_after (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    arg5.view.read (Elt F) (arg5.view.writes (Elt F) G (pb_k0_t1 (F := F) 𝒱 c bd i arg1 harg1 arg2 harg2 arg3 harg3 arg4 harg4 arg5 harg5 X G k0_t1_loop.trips))
      = afterLoop arg4 X := by
  have hcov : ∀ y : S256x16x64.Idx, ∃ p ∈ pb_k0_t1 (F := F) 𝒱 c bd i arg1 harg1 arg2 harg2 arg3 harg3 arg4 harg4 arg5 harg5 X G k0_t1_loop.trips, y ∈ p.1.set :=
    fun y => pieces_cover 𝒱 c bd i arg1 harg1 arg2 harg2 arg3 harg3 arg4 harg4 arg5 harg5 X G k0_t1_loop.trips le_rfl y (by
      rw [trips_eq]; have h : (y 0).val < 256 := (y 0).isLt; omega)
  rw [View.read_writes_eq_canon _ _ _ hcov]
  funext y
  exact View.canon_apply_of_pieces (afterLoop arg4 X) _ (pieces_block 𝒱 c bd i arg1 harg1 arg2 harg2 arg3 harg3 arg4 harg4 arg5 harg5 X G k0_t1_loop.trips le_rfl) y (hcov y)

theorem hz3 : (![0, 0, 0] : Fin 3 → Nat) = fun _ => 0 := funext fun a => by fin_cases a <;> rfl

/-- The same as a whole-buffer load reads it. -/
theorem scratch_after_load (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty)
    (inb : ∀ a, (![0, 0, 0] : Fin 3 → Nat) a + S256x16x64.size a ≤ S256x16x64.size a) :
    arg5.view.readAt (Elt F) (Rect.unit (s := S256x16x64) ![0, 0, 0] S256x16x64.size inb).toLoadRect
        (arg5.view.writes (Elt F) G (pb_k0_t1 (F := F) 𝒱 c bd i arg1 harg1 arg2 harg2 arg3 harg3 arg4 harg4 arg5 harg5 X G (Scf.trips k0_t1_loop.lb k0_t1_loop.ub k0_t1_loop.st)))
      = afterLoop arg4 X := by
  rw [View.readAt_eq_ld, View.ld_unit_zero hz3]
  exact scratch_after 𝒱 c bd i arg1 harg1 arg2 harg2 arg3 harg3 arg4 harg4 arg5 harg5 X G

end Cert.Kernel.Loop0

end
-- ==== Proof.KernelIdealLoop.lean ====
/-
  What the body's counted loop leaves in its second scratch buffer, whatever that buffer held before.

  Trip k of the eight loads three slabs [32, 1, 16, 64] of the first scratch buffer at rows 32·k … 32·k + 31 (the query, key and
  value families) and stores one [32, 16, 64] block, a function of those three slabs alone, at rows 32·k … 32·k + 31 of
  the second scratch buffer.  So the eight stores are blocks of ONE function of the first buffer's contents — row y of
  it is row y mod 32 of chunk y / 32 — and between them they cover all 256 rows: after the loop the second buffer reads
  as that function at every index, and nothing of what it held at loop entry is left.
-/
import proofs.«172339_j14577119003257_2_alg».proof.Proof.Gen.KernelIdeal.Loops
import Idealize.ShloMosaic.Lib.Pipeline.Value
import Idealize.ShloMosaic.Lib.Pipeline.FrameBody
import Idealize.ShloMosaic.Lib.ValueIdx

-- the recursion over the trips carries every operand of the body: its equations need a deeper traversal than the default
set_option maxRecDepth 8192
set_option maxHeartbeats 4000000

noncomputable section

namespace Cert.KernelIdeal.Loop0

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop makes eight trips. -/
theorem trips_eq : k0_t1_loop.trips = 8 := by decide

/-- What trip k stores: the chunk's arithmetic of the three slabs it loads from the first scratch buffer. -/
def chunkPay (arg4 : Memref sig .tc .vmem S256x3x16x64 .f32) (X : BufTy.Contents (Elt F) arg4.view.ty) (k : Fin k0_t1_loop.trips) :
    Vec F S32x16x64 .f32 :=
  k0_pay3
    (arg4.view.readAt (Elt F) (Rect.unit (s := S256x3x16x64) (k0_off1 k) S32x1x16x64.size (k0_off1_inb k)).toLoadRect X)
    (arg4.view.readAt (Elt F) (Rect.unit (s := S256x3x16x64) (k0_off2 k) S32x1x16x64.size (k0_off2_inb k)).toLoadRect X)
    (arg4.view.readAt (Elt F) (Rect.unit (s := S256x3x16x64) (k0_off3 k) S32x1x16x64.size (k0_off3_inb k)).toLoadRect X)

/-- One trip's pieces: the one store, whatever the second buffer holds. -/
theorem tripL_eq (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (k : Fin k0_t1_loop.trips) (f : BufTy.Contents (Elt F) arg5.view.ty) :
    tripL_k0_t1 (F := F) 𝒱 c bd i arg1 harg1 arg2 harg2 arg3 harg3 arg4 harg4 arg5 harg5 X k f
      = [⟨Rect.unit (s := S256x16x64) (k0_off4 k) S32x16x64.size (k0_off4_inb k), chunkPay arg4 X k⟩] := by
  unfold tripL_k0_t1 trip_k0_t1
  dsimp only
  sl_unfold_run_names
  rfl

/-- The second scratch buffer after the loop: row y is row y mod 32 of chunk y / 32. -/
def afterLoop (arg4 : Memref sig .tc .vmem S256x3x16x64 .f32) (X : BufTy.Contents (Elt F) arg4.view.ty) :
    S256x16x64.Idx → Elt F .f32 := fun y =>
  chunkPay arg4 X ⟨(y 0).val / 32, by rw [trips_eq]; have h : (y 0).val < 256 := (y 0).isLt; omega⟩
    (ix3 (⟨(y 0).val % 32, Nat.mod_lt _ (by norm_num)⟩ : Fin 32) (⟨(y 1).val, (y 1).isLt⟩ : Fin 16) (⟨(y 2).val, (y 2).isLt⟩ : Fin 64))

/-- Every store of the trips before n is a block of that one function. -/
theorem pieces_block (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    ∀ n, n ≤ k0_t1_loop.trips → ∀ p ∈ pb_k0_t1 (F := F) 𝒱 c bd i arg1 harg1 arg2 harg2 arg3 harg3 arg4 harg4 arg5 harg5 X G n,
      ∀ x : p.1.shape.Idx, p.2 x = afterLoop arg4 X (p.1.emb x)
  | 0, _, p, hp, _ => absurd hp (by simp [pb_k0_t1])
  | n + 1, hn, p, hp, x => by
    have hk : n < k0_t1_loop.trips := hn
    rw [show n + 1 = (⟨n, hk⟩ : Fin k0_t1_loop.trips).val + 1 from rfl, pb_k0_t1_succ, tripL_eq] at hp
    rcases List.mem_append.mp hp with h | h
    · obtain rfl := List.mem_singleton.mp h
      have hx0 : (x 0).val < 32 := (x 0).isLt
      have o0 : k0_off4 ⟨n, hk⟩ 0 = 32 * n := congrFun (k0_off4_eq ⟨n, hk⟩) 0
      have o1 : k0_off4 ⟨n, hk⟩ 1 = 0 := congrFun (k0_off4_eq ⟨n, hk⟩) 1
      have o2 : k0_off4 ⟨n, hk⟩ 2 = 0 := congrFun (k0_off4_eq ⟨n, hk⟩) 2
      have e0 : ((Rect.unit (s := S256x16x64) (k0_off4 ⟨n, hk⟩) S32x16x64.size (k0_off4_inb ⟨n, hk⟩)).emb x 0).val = 32 * n + (x 0).val := by
        rw [Rect.emb_apply]; show k0_off4 ⟨n, hk⟩ 0 + 1 * (x 0).val = _; omega
      have e1 : ((Rect.unit (s := S256x16x64) (k0_off4 ⟨n, hk⟩) S32x16x64.size (k0_off4_inb ⟨n, hk⟩)).emb x 1).val = (x 1).val := by
        rw [Rect.emb_apply]; show k0_off4 ⟨n, hk⟩ 1 + 1 * (x 1).val = _; omega
      have e2 : ((Rect.unit (s := S256x16x64) (k0_off4 ⟨n, hk⟩) S32x16x64.size (k0_off4_inb ⟨n, hk⟩)).emb x 2).val = (x 2).val := by
        rw [Rect.emb_apply]; show k0_off4 ⟨n, hk⟩ 2 + 1 * (x 2).val = _; omega
      have key : ∀ (k' : Fin k0_t1_loop.trips) (x' : S32x16x64.Idx), k' = ⟨n, hk⟩ → x' = x →
          chunkPay arg4 X ⟨n, hk⟩ x = chunkPay arg4 X k' x' := by rintro _ _ rfl rfl; rfl
      show chunkPay arg4 X ⟨n, hk⟩ x = afterLoop arg4 X _
      unfold afterLoop
      refine key _ _ (Fin.ext ?_) (funext fun a => Fin.ext ?_)
      · show ((Rect.unit (s := S256x16x64) (k0_off4 ⟨n, hk⟩) S32x16x64.size (k0_off4_inb ⟨n, hk⟩)).emb x 0).val / 32 = n
        rw [e0]; omega
      · match a with
        | ⟨0, _⟩ =>
          show ((Rect.unit (s := S256x16x64) (k0_off4 ⟨n, hk⟩) S32x16x64.size (k0_off4_inb ⟨n, hk⟩)).emb x 0).val % 32 = (x 0).val
          rw [e0]; omega
        | ⟨1, _⟩ => exact e1
        | ⟨2, _⟩ => exact e2
    · exact pieces_block 𝒱 c bd i arg1 harg1 arg2 harg2 arg3 harg3 arg4 harg4 arg5 harg5 X G n (Nat.le_of_lt hk) p h x

/-- The stores of the trips before n cover the first 32·n rows. -/
theorem pieces_cover (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    ∀ n, n ≤ k0_t1_loop.trips → ∀ y : S256x16x64.Idx, (y 0).val < 32 * n →
      ∃ p ∈ pb_k0_t1 (F := F) 𝒱 c bd i arg1 harg1 arg2 harg2 arg3 harg3 arg4 harg4 arg5 harg5 X G n, y ∈ p.1.set
  | 0, _, y, hy => absurd hy (by omega)
  | n + 1, hn, y, hy => by
    have hk : n < k0_t1_loop.trips := hn
    rw [show n + 1 = (⟨n, hk⟩ : Fin k0_t1_loop.trips).val + 1 from rfl, pb_k0_t1_succ, tripL_eq]
    by_cases h : (y 0).val < 32 * n
    · obtain ⟨p, hp, hy'⟩ := pieces_cover 𝒱 c bd i arg1 harg1 arg2 harg2 arg3 harg3 arg4 harg4 arg5 harg5 X G n (Nat.le_of_lt hk) y h
      exact ⟨p, List.mem_append_right _ hp, hy'⟩
    · refine ⟨_, List.mem_append_left _ (List.mem_singleton_self _), ?_⟩
      have h1 : (y 1).val < 16 := (y 1).isLt
      have h2 : (y 2).val < 64 := (y 2).isLt
      show y ∈ (Rect.unit (s := S256x16x64) (k0_off4 ⟨n, hk⟩) S32x16x64.size (k0_off4_inb ⟨n, hk⟩)).set
      have o0 : k0_off4 ⟨n, hk⟩ 0 = 32 * n := congrFun (k0_off4_eq ⟨n, hk⟩) 0
      have o1 : k0_off4 ⟨n, hk⟩ 1 = 0 := congrFun (k0_off4_eq ⟨n, hk⟩) 1
      have o2 : k0_off4 ⟨n, hk⟩ 2 = 0 := congrFun (k0_off4_eq ⟨n, hk⟩) 2
      rw [Rect.mem_set_unit]
      intro a
      match a with
      | ⟨0, _⟩ => show k0_off4 ⟨n, hk⟩ 0 ≤ (y 0).val ∧ (y 0).val < k0_off4 ⟨n, hk⟩ 0 + 32; omega
      | ⟨1, _⟩ => show k0_off4 ⟨n, hk⟩ 1 ≤ (y 1).val ∧ (y 1).val < k0_off4 ⟨n, hk⟩ 1 + 16; omega
      | ⟨2, _⟩ => show k0_off4 ⟨n, hk⟩ 2 ≤ (y 2).val ∧ (y 2).val < k0_off4 ⟨n, hk⟩ 2 + 64; omega

/-- AFTER THE LOOP the second scratch buffer reads as the one function of the first buffer's contents, whatever it held at
    loop entry. -/
theorem scratch_after (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty) :
    arg5.view.read (Elt F) (arg5.view.writes (Elt F) G (pb_k0_t1 (F := F) 𝒱 c bd i arg1 harg1 arg2 harg2 arg3 harg3 arg4 harg4 arg5 harg5 X G k0_t1_loop.trips))
      = afterLoop arg4 X := by
  have hcov : ∀ y : S256x16x64.Idx, ∃ p ∈ pb_k0_t1 (F := F) 𝒱 c bd i arg1 harg1 arg2 harg2 arg3 harg3 arg4 harg4 arg5 harg5 X G k0_t1_loop.trips, y ∈ p.1.set :=
    fun y => pieces_cover 𝒱 c bd i arg1 harg1 arg2 harg2 arg3 harg3 arg4 harg4 arg5 harg5 X G k0_t1_loop.trips le_rfl y (by
      rw [trips_eq]; have h : (y 0).val < 256 := (y 0).isLt; omega)
  rw [View.read_writes_eq_canon _ _ _ hcov]
  funext y
  exact View.canon_apply_of_pieces (afterLoop arg4 X) _ (pieces_block 𝒱 c bd i arg1 harg1 arg2 harg2 arg3 harg3 arg4 harg4 arg5 harg5 X G k0_t1_loop.trips le_rfl) y (hcov y)

theorem hz3 : (![0, 0, 0] : Fin 3 → Nat) = fun _ => 0 := funext fun a => by fin_cases a <;> rfl

/-- The same as a whole-buffer load reads it. -/
theorem scratch_after_load (𝒱 : Variants) (c : Dev nD) (bd : Option 𝒱.V) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole)
    (X : BufTy.Contents (Elt F) arg4.view.ty) (G : BufTy.Contents (Elt F) arg5.view.ty)
    (inb : ∀ a, (![0, 0, 0] : Fin 3 → Nat) a + S256x16x64.size a ≤ S256x16x64.size a) :
    arg5.view.readAt (Elt F) (Rect.unit (s := S256x16x64) ![0, 0, 0] S256x16x64.size inb).toLoadRect
        (arg5.view.writes (Elt F) G (pb_k0_t1 (F := F) 𝒱 c bd i arg1 harg1 arg2 harg2 arg3 harg3 arg4 harg4 arg5 harg5 X G (Scf.trips k0_t1_loop.lb k0_t1_loop.ub k0_t1_loop.st)))
      = afterLoop arg4 X := by
  rw [View.readAt_eq_ld, View.ld_unit_zero hz3]
  exact scratch_after 𝒱 c bd i arg1 harg1 arg2 harg2 arg3 harg3 arg4 harg4 arg5 harg5 X G

end Cert.KernelIdeal.Loop0

end
-- ==== Proof.KernelRun.lean ====
/-
  The idealized kernel's run with its result named.  From any launch memory every weakly fair execution of the program
  terminates without a fault; at the end the result buffer holds what the last stretch of host operations leaves — the
  fold, from the launch memory, of the three stretches of host operations and of the two regions' write-backs — and the
  three argument arrays are as launched.
-/
import proofs.«172339_j14577119003257_2_alg».proof.Proof.KernelIdealFrame

-- membership in a rectangle of full-size extents: the elaborator's structural look
-- recurses once per coordinate of the long axes
set_option maxRecDepth 16384

noncomputable section

namespace Cert.KernelIdeal.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run: the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.KRun

end
-- ==== Proof.AttnSpec.lean ====
/-
  The function both programs compute, stated once over the extended reals and over no program.

  A token (b, t) of the input x : [4, 2048, 1024] is projected by W_qkv : [3072, 1024] to 3072 numbers, read as
  three families (query, key, value) of 16 heads of 64 lanes: number (c, h, e) is the dot product of the token with
  row c·1024 + h·64 + e of W_qkv.  Within one token the 16 heads attend to each other: the score of heads (i, j) is the
  dot product of query i with key j times 1/8, each row of scores is turned into weights by
  exp (s − max) / Σ exp (s − max), and head i's result is the weighted sum of the values.  The per-token results
  [4, 2048, 16, 64] are then laid out as [4, 16, 2048, 64] and read back row-major as [4, 2048, 1024] (so row t' of
  batch b mixes heads and tokens: flat position f = t'·1024 + d' holds head f / 131072, token (f / 64) mod 2048,
  lane f mod 64), and that array is projected by W_proj : [1024, 1024].
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev SX : Shape := ⟨3, ![4, 2048, 1024]⟩
abbrev SWq : Shape := ⟨2, ![3072, 1024]⟩
abbrev SWp : Shape := ⟨2, ![1024, 1024]⟩

/-- The score scale 1/8 and the maximum's starting value −∞, kept as the words both programs write. -/
abbrev cS : EReal := Ideal.ofBits .f32 0x3E000000#32
abbrev negInf : EReal := Ideal.ofBits .f32 0xFF800000#32

/-- Row of W_qkv that produces lane e of head h of family c (0 query, 1 key, 2 value). -/
def col (c : Fin 3) (h : Fin 16) (e : Fin 64) : Fin 3072 :=
  ⟨c.val * 1024 + h.val * 64 + e.val, by have := c.isLt; have := h.isLt; have := e.isLt; omega⟩

/-- The projected token: family c, head h, lane e of token (b, t). -/
def qkvAt (X : SX.Idx → EReal) (Wq : SWq.Idx → EReal) (b : Fin 4) (t : Fin 2048) (c : Fin 3) (h : Fin 16) (e : Fin 64) : EReal :=
  ∑ d : Fin 1024, X (ix3 b t d) * Wq (ix2 (col c h e) d)

/-- Scaled score of query head i against key head j. -/
def score (Q : Fin 3 → Fin 16 → Fin 64 → EReal) (i j : Fin 16) : EReal :=
  (∑ e : Fin 64, Q 0 i e * Q 1 j e) * cS

/-- The largest score of row i (from −∞). -/
def rowMax (Q : Fin 3 → Fin 16 → Fin 64 → EReal) (i : Fin 16) : EReal :=
  (Finset.univ : Finset (Fin 16)).fold max negInf (fun j => score Q i j)

/-- exp (score − row maximum). -/
def expo (Q : Fin 3 → Fin 16 → Fin 64 → EReal) (i j : Fin 16) : EReal :=
  Ideal.exp (score Q i j - rowMax Q i)

/-- The row's normaliser. -/
def denom (Q : Fin 3 → Fin 16 → Fin 64 → EReal) (i : Fin 16) : EReal :=
  ∑ j : Fin 16, expo Q i j

/-- Head i, lane e of one token's attention over its own heads. -/
def attn (Q : Fin 3 → Fin 16 → Fin 64 → EReal) (i : Fin 16) (e : Fin 64) : EReal :=
  ∑ j : Fin 16, Ideal.div (expo Q i j) (denom Q i) * Q 2 j e

/-- Entry (b, t', d') of the re-laid attention output. -/
def mixed (X : SX.Idx → EReal) (Wq : SWq.Idx → EReal) (b : Fin 4) (t' : Fin 2048) (d' : Fin 1024) : EReal :=
  attn (qkvAt X Wq b ⟨(t'.val * 1024 + d'.val) / 64 % 2048, Nat.mod_lt _ (by norm_num)⟩)
    ⟨(t'.val * 1024 + d'.val) / 131072, by have := t'.isLt; have := d'.isLt; omega⟩
    ⟨(t'.val * 1024 + d'.val) % 64, Nat.mod_lt _ (by norm_num)⟩

/-- The result: the re-laid attention output projected by W_proj. -/
def out (X : SX.Idx → EReal) (Wq : SWq.Idx → EReal) (Wp : SWp.Idx → EReal) : SX.Idx → EReal :=
  fun i => ∑ d' : Fin 1024, mixed X Wq (i 0) (i 1) d' * Wp (ix2 (i 2) d')

end Cert.Attn

end
-- ==== Proof.LibReadAtIndex.lean ====
/-
  Three readings at an index that a kernel with a `keepdims` row reduction and matrix products needs.

  * A vector of length a cast to a column [a, 1] has, at (i, 0), the vector's entry i.
  * A column [a, 1] broadcast to [a, b] has, at (p, c), the column's entry p — every row is constant.
  * A matrix product with ONE contracted axis of extent n, accumulated into zero, has at an output index j the sum over
    k < n of the left operand at L k times the right operand at R k, where L k and R k are the operand indices the
    product's dimension numbers assign to j and k. Over the extended reals the zero accumulator adds nothing and the
    sum has no order.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ReadAtIndex

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A matrix product with one contracted axis of extent `n`, into the zero accumulator, read at `j`: the sum over the
    axis's coordinates of the operands' products at the indices the dimension numbers name. -/
theorem matmul_zero_sum {sl sr so : Shape} {φ₁ φ₂ : FTy} (D : DotDims sl sr so) (n : ℕ) (hr : D.contr.rank = 1)
    (hs : D.contr.size ⟨0, by omega⟩ = n) (prec : Option ContractPrecision)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl, hr']

end Cert.ReadAtIndex

end
-- ==== Proof.KernelPayloads.lean ====
/-
  The kernels' arithmetic, read at an index over the extended reals.

  * The first body's matrix product, reshaped to [256, 3, 16, 64]: entry (r, c, h, e) is the dot product of row r of the
    token block with row c·1024 + h·64 + e of the weight.
  * One chunk of 32 tokens: from the chunk's query, key and value slabs [32, 1, 16, 64] the body forms, per token r, the
    16 × 16 scores (a product broadcast over a new axis and summed over the 64 lanes, times 1/8), their row maximum,
    exp (score − maximum), the row sum, the quotient, and the weighted sum of the values over the key heads: the
    specification's `attn` of that token's three slabs.
  * The rounding to bf16 before the write-back is the identity on the extended reals.
  * The second body's matrix product: entry (r, n) is the dot product of row r of its first operand with row n of its second.
-/
import proofs.«172339_j14577119003257_2_alg».proof.Proof.Gen.KernelIdeal.Skeleton
import proofs.«172339_j14577119003257_2_alg».proof.Proof.AttnSpec
import proofs.«172339_j14577119003257_2_alg».proof.Proof.LibReadAtIndex
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.Attn Cert.KernelIdeal Cert.KernelIdeal.Gen

/-! ## Layout operations of the chunk, read at an index -/

section Layout
variable {α : Type}

/-- [32, 1, 16, 64] viewed [32, 16, 64]. -/
theorem cast_slab (x : S32x1x16x64.Idx → α) (h : S32x1x16x64.ShapeCasts S32x16x64) (r : Fin 32) (i : Fin 16) (e : Fin 64) :
    shapeCast S32x16x64 x h (ix3 r i e) = x (ix4 r (0 : Fin 1) i e) :=
  shapeCast_apply x h _ _ (by
    rw [Shape.rowMajor_val_four, Shape.rowMajor_val_three]
    show ((r.val * 1 + 0) * 16 + i.val) * 64 + e.val = (r.val * 16 + i.val) * 64 + e.val
    omega)

/-- [32, 16, 64] viewed [32, 16, 1, 64]. -/
theorem cast_query (x : S32x16x64.Idx → α) (h : S32x16x64.ShapeCasts S32x16x1x64) (r : Fin 32) (i : Fin 16) (u : Fin 1) (e : Fin 64) :
    shapeCast S32x16x1x64 x h (ix4 r i u e) = x (ix3 r i e) :=
  shapeCast_apply x h _ _ (by
    have hu : u.val = 0 := by omega
    rw [Shape.rowMajor_val_three, Shape.rowMajor_val_four]
    show (r.val * 16 + i.val) * 64 + e.val = ((r.val * 16 + i.val) * 1 + u.val) * 64 + e.val
    omega)

/-- [32, 16, 64] viewed [32, 1, 16, 64]. -/
theorem cast_key (x : S32x16x64.Idx → α) (h : S32x16x64.ShapeCasts S32x1x16x64) (r : Fin 32) (u : Fin 1) (j : Fin 16) (e : Fin 64) :
    shapeCast S32x1x16x64 x h (ix4 r u j e) = x (ix3 r j e) :=
  shapeCast_apply x h _ _ (by
    have hu : u.val = 0 := by omega
    rw [Shape.rowMajor_val_three, Shape.rowMajor_val_four]
    show (r.val * 16 + j.val) * 64 + e.val = ((r.val * 1 + u.val) * 16 + j.val) * 64 + e.val
    omega)

/-- [32, 16, 1, 64] broadcast over the key-head axis. -/
theorem bcast_query (x : S32x16x1x64.Idx → α) (h : S32x16x1x64.Broadcasts S32x16x16x64) (r : Fin 32) (i j : Fin 16) (e : Fin 64) :
    broadcastTo S32x16x16x64 x h (ix4 r i j e) = x (ix4 r i (0 : Fin 1) e) :=
  broadcastTo_apply x h _ _ (fun a => match a with
    | ⟨0, _⟩ => by show r.val = if (32 : Nat) = 1 then 0 else r.val; rw [if_neg (by decide)]
    | ⟨1, _⟩ => by show i.val = if (16 : Nat) = 1 then 0 else i.val; rw [if_neg (by decide)]
    | ⟨2, _⟩ => by show (0 : Nat) = if (1 : Nat) = 1 then 0 else j.val; rw [if_pos rfl]
    | ⟨3, _⟩ => by show e.val = if (64 : Nat) = 1 then 0 else e.val; rw [if_neg (by decide)])

/-- [32, 1, 16, 64] broadcast over the query-head axis. -/
theorem bcast_key (x : S32x1x16x64.Idx → α) (h : S32x1x16x64.Broadcasts S32x16x16x64) (r : Fin 32) (i j : Fin 16) (e : Fin 64) :
    broadcastTo S32x16x16x64 x h (ix4 r i j e) = x (ix4 r (0 : Fin 1) j e) :=
  broadcastTo_apply x h _ _ (fun a => match a with
    | ⟨0, _⟩ => by show r.val = if (32 : Nat) = 1 then 0 else r.val; rw [if_neg (by decide)]
    | ⟨1, _⟩ => by show (0 : Nat) = if (1 : Nat) = 1 then 0 else i.val; rw [if_pos rfl]
    | ⟨2, _⟩ => by show j.val = if (16 : Nat) = 1 then 0 else j.val; rw [if_neg (by decide)]
    | ⟨3, _⟩ => by show e.val = if (64 : Nat) = 1 then 0 else e.val; rw [if_neg (by decide)])

/-- [32, 16] viewed [32, 16, 1]. -/
theorem cast_col (x : S32x16.Idx → α) (h : S32x16.ShapeCasts S32x16x1) (r : Fin 32) (i : Fin 16) (u : Fin 1) :
    shapeCast S32x16x1 x h (ix3 r i u) = x (ix2 r i) :=
  shapeCast_apply x h _ _ (by
    have hu : u.val = 0 := by omega
    rw [Shape.rowMajor_val_two, Shape.rowMajor_val_three]
    show r.val * 16 + i.val = (r.val * 16 + i.val) * 1 + u.val
    omega)

/-- [32, 16, 1] broadcast along the row. -/
theorem bcast_col (x : S32x16x1.Idx → α) (h : S32x16x1.Broadcasts S32x16x16) (r : Fin 32) (i j : Fin 16) :
    broadcastTo S32x16x16 x h (ix3 r i j) = x (ix3 r i (0 : Fin 1)) :=
  broadcastTo_apply x h _ _ (fun a => match a with
    | ⟨0, _⟩ => by show r.val = if (32 : Nat) = 1 then 0 else r.val; rw [if_neg (by decide)]
    | ⟨1, _⟩ => by show i.val = if (16 : Nat) = 1 then 0 else i.val; rw [if_neg (by decide)]
    | ⟨2, _⟩ => by show (0 : Nat) = if (1 : Nat) = 1 then 0 else j.val; rw [if_pos rfl])

/-- [32, 16, 16] viewed [32, 16, 16, 1]. -/
theorem cast_weight (x : S32x16x16.Idx → α) (h : S32x16x16.ShapeCasts S32x16x16x1) (r : Fin 32) (i j : Fin 16) (u : Fin 1) :
    shapeCast S32x16x16x1 x h (ix4 r i j u) = x (ix3 r i j) :=
  shapeCast_apply x h _ _ (by
    have hu : u.val = 0 := by omega
    rw [Shape.rowMajor_val_three, Shape.rowMajor_val_four]
    show (r.val * 16 + i.val) * 16 + j.val = ((r.val * 16 + i.val) * 16 + j.val) * 1 + u.val
    omega)

/-- [32, 16, 16, 1] broadcast over the lanes. -/
theorem bcast_weight (x : S32x16x16x1.Idx → α) (h : S32x16x16x1.Broadcasts S32x16x16x64) (r : Fin 32) (i j : Fin 16) (e : Fin 64) :
    broadcastTo S32x16x16x64 x h (ix4 r i j e) = x (ix4 r i j (0 : Fin 1)) :=
  broadcastTo_apply x h _ _ (fun a => match a with
    | ⟨0, _⟩ => by show r.val = if (32 : Nat) = 1 then 0 else r.val; rw [if_neg (by decide)]
    | ⟨1, _⟩ => by show i.val = if (16 : Nat) = 1 then 0 else i.val; rw [if_neg (by decide)]
    | ⟨2, _⟩ => by show j.val = if (16 : Nat) = 1 then 0 else j.val; rw [if_neg (by decide)]
    | ⟨3, _⟩ => by show (0 : Nat) = if (1 : Nat) = 1 then 0 else e.val; rw [if_pos rfl])

end Layout

/-! ## The chunk's reductions -/

/-- The sum over the 64 lanes. -/
theorem sum_lanes (x : FVec Ideal S32x16x16x64 .f32) (h : S32x16x16x64.Reduces [3] S32x16x16) (hφ : FKind.Formats .f32)
    (hacc : (0x00000000#32 : BitVec 32) = FKind.add.neutral .f32 hφ) (r : Fin 32) (i j : Fin 16) :
    multiReduction (F := Ideal) .add [3] S32x16x16 x 0x00000000#32 h hφ hacc (ix3 r i j) = ∑ e : Fin 64, x (ix4 r i j e) := by
  refine (Ideal.multiReduction_add_single x 0x00000000#32 h hφ hacc (ix3 r i j)).trans ?_
  refine Finset.sum_congr rfl fun k _ => congrArg x ?_
  exact funext fun a => Fin.ext (by match a with | ⟨0, _⟩ => rfl | ⟨1, _⟩ => rfl | ⟨2, _⟩ => rfl | ⟨3, _⟩ => rfl)

/-- The maximum over the 16 key heads, from −∞. -/
theorem max_keys (x : FVec Ideal S32x16x16 .f32) (h : S32x16x16.Reduces [2] S32x16) (hφ : FKind.Formats .f32)
    (hacc : (0xFF800000#32 : BitVec 32) = FKind.maximumf.neutral .f32 hφ) (r : Fin 32) (i : Fin 16) :
    multiReduction (F := Ideal) .maximumf [2] S32x16 x 0xFF800000#32 h hφ hacc (ix2 r i)
      = (Finset.univ : Finset (Fin 16)).fold max negInf (fun j => x (ix3 r i j)) := by
  refine (Ideal.multiReduction_maximumf_single x 0xFF800000#32 h hφ hacc (ix2 r i)).trans ?_
  have hf : (x ∘ h.lift (ix2 r i)) = fun j : Fin 16 => x (ix3 r i j) :=
    funext fun k => congrArg x (funext fun a => Fin.ext (by match a with | ⟨0, _⟩ => rfl | ⟨1, _⟩ => rfl | ⟨2, _⟩ => rfl))
  rw [hf]
  rfl

/-- The sum over the 16 key heads of a [32, 16, 16] value. -/
theorem sum_keys3 (x : FVec Ideal S32x16x16 .f32) (h : S32x16x16.Reduces [2] S32x16) (hφ : FKind.Formats .f32)
    (hacc : (0x00000000#32 : BitVec 32) = FKind.add.neutral .f32 hφ) (r : Fin 32) (i : Fin 16) :
    multiReduction (F := Ideal) .add [2] S32x16 x 0x00000000#32 h hφ hacc (ix2 r i) = ∑ j : Fin 16, x (ix3 r i j) := by
  refine (Ideal.multiReduction_add_single x 0x00000000#32 h hφ hacc (ix2 r i)).trans ?_
  refine Finset.sum_congr rfl fun k _ => congrArg x ?_
  exact funext fun a => Fin.ext (by match a with | ⟨0, _⟩ => rfl | ⟨1, _⟩ => rfl | ⟨2, _⟩ => rfl)

/-- The sum over the 16 key heads of a [32, 16, 16, 64] value. -/
theorem sum_keys4 (x : FVec Ideal S32x16x16x64 .f32) (h : S32x16x16x64.Reduces [2] S32x16x64) (hφ : FKind.Formats .f32)
    (hacc : (0x00000000#32 : BitVec 32) = FKind.add.neutral .f32 hφ) (r : Fin 32) (i : Fin 16) (e : Fin 64) :
    multiReduction (F := Ideal) .add [2] S32x16x64 x 0x00000000#32 h hφ hacc (ix3 r i e) = ∑ j : Fin 16, x (ix4 r i j e) := by
  refine (Ideal.multiReduction_add_single x 0x00000000#32 h hφ hacc (ix3 r i e)).trans ?_
  refine Finset.sum_congr rfl fun k _ => congrArg x ?_
  exact funext fun a => Fin.ext (by match a with | ⟨0, _⟩ => rfl | ⟨1, _⟩ => rfl | ⟨2, _⟩ => rfl | ⟨3, _⟩ => rfl)

/-! ## One chunk's attention, one value at a time -/

/-- Token r of the chunk: its three slabs as the specification's (family, head, lane) table. -/
def slabs (q k v : FVec Ideal S32x1x16x64 .f32) (r : Fin 32) : Fin 3 → Fin 16 → Fin 64 → EReal :=
  fun c h e => ![q (ix4 r (0 : Fin 1) h e), k (ix4 r (0 : Fin 1) h e), v (ix4 r (0 : Fin 1) h e)] c

/-- Query lane times key lane, for every pair of heads. -/
def prodQK (q k : FVec Ideal S32x1x16x64 .f32) : FVec Ideal S32x16x16x64 .f32 :=
  mulf (broadcastTo S32x16x16x64 (shapeCast S32x16x1x64 (shapeCast S32x16x64 q shapeCasts_S32x1x16x64_S32x16x64) shapeCasts_S32x16x64_S32x16x1x64) broadcasts_S32x16x1x64_S32x16x16x64)
       (broadcastTo S32x16x16x64 (shapeCast S32x1x16x64 (shapeCast S32x16x64 k shapeCasts_S32x1x16x64_S32x16x64) shapeCasts_S32x16x64_S32x1x16x64) broadcasts_S32x1x16x64_S32x16x16x64)

theorem prodQK_apply (q k : FVec Ideal S32x1x16x64 .f32) (r : Fin 32) (i j : Fin 16) (e : Fin 64) :
    prodQK q k (ix4 r i j e) = q (ix4 r (0 : Fin 1) i e) * k (ix4 r (0 : Fin 1) j e) := by
  unfold prodQK
  rw [mulf_apply, bcast_query, cast_query, cast_slab, bcast_key, cast_key, cast_slab]

/-- The scaled scores. -/
def scoresV (q k : FVec Ideal S32x1x16x64 .f32) : FVec Ideal S32x16x16 .f32 :=
  mulf (multiReduction .add [3] S32x16x16 (prodQK q k) 0x00000000#32 reduces_S32x16x16x64_S32x16x16 (.inl rfl) rfl)
       (broadcast S32x16x16 (Scalar.ofBits .f32 0x3E000000#32))

theorem scoresV_apply (q k v : FVec Ideal S32x1x16x64 .f32) (r : Fin 32) (i j : Fin 16) :
    scoresV q k (ix3 r i j) = score (slabs q k v r) i j := by
  unfold scoresV score
  rw [mulf_apply, broadcast_apply]
  refine congrArg (· * cS) ?_
  refine (sum_lanes _ _ _ _ r i j).trans (Finset.sum_congr rfl fun e _ => ?_)
  rw [prodQK_apply]
  rfl

/-- The row maxima. -/
def maxV (q k : FVec Ideal S32x1x16x64 .f32) : FVec Ideal S32x16 .f32 :=
  multiReduction .maximumf [2] S32x16 (scoresV q k) 0xFF800000#32 reduces_S32x16x16_S32x16 (.inl rfl) rfl

theorem maxV_apply (q k v : FVec Ideal S32x1x16x64 .f32) (r : Fin 32) (i : Fin 16) :
    maxV q k (ix2 r i) = rowMax (slabs q k v r) i := by
  unfold maxV rowMax
  refine (max_keys _ _ _ _ r i).trans ?_
  exact congrArg (fun f => Finset.fold max negInf f (Finset.univ : Finset (Fin 16))) (funext fun j => scoresV_apply q k v r i j)

/-- exp (score − row maximum). -/
def expV (q k : FVec Ideal S32x1x16x64 .f32) : FVec Ideal S32x16x16 .f32 :=
  exp (subf (scoresV q k) (broadcastTo S32x16x16 (shapeCast S32x16x1 (maxV q k) shapeCasts_S32x16_S32x16x1) broadcasts_S32x16x1_S32x16x16))

theorem expV_apply (q k v : FVec Ideal S32x1x16x64 .f32) (r : Fin 32) (i j : Fin 16) :
    expV q k (ix3 r i j) = expo (slabs q k v r) i j := by
  unfold expV expo
  show Ideal.exp (scoresV q k (ix3 r i j)
      - broadcastTo S32x16x16 (shapeCast S32x16x1 (maxV q k) shapeCasts_S32x16_S32x16x1) broadcasts_S32x16x1_S32x16x16 (ix3 r i j)) = _
  rw [bcast_col, cast_col, maxV_apply q k v, scoresV_apply q k v]

/-- The row sums of the exponentials. -/
def sumV (q k : FVec Ideal S32x1x16x64 .f32) : FVec Ideal S32x16 .f32 :=
  multiReduction .add [2] S32x16 (expV q k) 0x00000000#32 reduces_S32x16x16_S32x16 (.inl rfl) rfl

theorem sumV_apply (q k v : FVec Ideal S32x1x16x64 .f32) (r : Fin 32) (i : Fin 16) :
    sumV q k (ix2 r i) = denom (slabs q k v r) i := by
  unfold sumV denom
  exact (sum_keys3 _ _ _ _ r i).trans (Finset.sum_congr rfl fun j _ => expV_apply q k v r i j)

/-- The weights. -/
def weightV (q k : FVec Ideal S32x1x16x64 .f32) : FVec Ideal S32x16x16 .f32 :=
  divf (expV q k) (broadcastTo S32x16x16 (shapeCast S32x16x1 (sumV q k) shapeCasts_S32x16_S32x16x1) broadcasts_S32x16x1_S32x16x16)

theorem weightV_apply (q k v : FVec Ideal S32x1x16x64 .f32) (r : Fin 32) (i j : Fin 16) :
    weightV q k (ix3 r i j) = Ideal.div (expo (slabs q k v r) i j) (denom (slabs q k v r) i) := by
  unfold weightV
  rw [divf_apply, bcast_col, cast_col, expV_apply q k v, sumV_apply q k v]

/-- The weighted sum of the values. -/
def outV (q k v : FVec Ideal S32x1x16x64 .f32) : FVec Ideal S32x16x64 .f32 :=
  multiReduction .add [2] S32x16x64
    (mulf (broadcastTo S32x16x16x64 (shapeCast S32x16x16x1 (weightV q k) shapeCasts_S32x16x16_S32x16x16x1) broadcasts_S32x16x16x1_S32x16x16x64)
          (broadcastTo S32x16x16x64 (shapeCast S32x1x16x64 (shapeCast S32x16x64 v shapeCasts_S32x1x16x64_S32x16x64) shapeCasts_S32x16x64_S32x1x16x64) broadcasts_S32x1x16x64_S32x16x16x64))
    0x00000000#32 reduces_S32x16x16x64_S32x16x64 (.inl rfl) rfl

theorem outV_apply (q k v : FVec Ideal S32x1x16x64 .f32) (r : Fin 32) (i : Fin 16) (e : Fin 64) :
    outV q k v (ix3 r i e) = attn (slabs q k v r) i e := by
  unfold outV attn
  refine (sum_keys4 _ _ _ _ r i e).trans (Finset.sum_congr rfl fun j _ => ?_)
  rw [mulf_apply, bcast_weight, cast_weight, weightV_apply q k v, bcast_key, cast_key, cast_slab]
  rfl

/-- The printed payload is this chain of values. -/
theorem k0_pay3_eq (q k v : FVec Ideal S32x1x16x64 .f32) :
    k0_pay3 (F := Ideal) q k v = shapeCast S32x16x64 (outV q k v) shapeCasts_S32x16x64_S32x16x64 := rfl

/-- THE CHUNK'S PAYLOAD at (r, i, e) is the specification's attention of token r's slabs. -/
theorem k0_pay3_apply (q k v : FVec Ideal S32x1x16x64 .f32) (r : Fin 32) (i : Fin 16) (e : Fin 64) :
    k0_pay3 (F := Ideal) q k v (ix3 r i e) = attn (slabs q k v r) i e := by
  rw [k0_pay3_eq, shapeCast_self, outV_apply]

/-! ## The two matrix products -/

theorem dot0_lhs0 (j : S256x3072.Idx) (q : dot_S256x1024_S3072x1024_S256x3072_1_1_0_0_n_n.contr.Idx) : (dot_S256x1024_S3072x1024_S256x3072_1_1_0_0_n_n.lhsIdx j q 0).val = (j 0).val := by
  unfold DotDims.lhsIdx
  rw [dif_neg (show ¬(0 : Fin S256x1024.rank) ∈ dot_S256x1024_S3072x1024_S256x3072_1_1_0_0_n_n.lhsBatch by decide), dif_pos (show (0 : Fin S256x1024.rank) ∈ dot_S256x1024_S3072x1024_S256x3072_1_1_0_0_n_n.lhsNonContracting by decide)]
  rfl
theorem dot0_lhs1 (j : S256x3072.Idx) (q : dot_S256x1024_S3072x1024_S256x3072_1_1_0_0_n_n.contr.Idx) : (dot_S256x1024_S3072x1024_S256x3072_1_1_0_0_n_n.lhsIdx j q 1).val = (q ⟨0, by decide⟩).val :=
  dot_S256x1024_S3072x1024_S256x3072_1_1_0_0_n_n.lhsIdx_val_of_single rfl j q
theorem dot0_rhs0 (j : S256x3072.Idx) (q : dot_S256x1024_S3072x1024_S256x3072_1_1_0_0_n_n.contr.Idx) : (dot_S256x1024_S3072x1024_S256x3072_1_1_0_0_n_n.rhsIdx j q 0).val = (j 1).val := by
  unfold DotDims.rhsIdx
  rw [dif_neg (show ¬(0 : Fin S3072x1024.rank) ∈ dot_S256x1024_S3072x1024_S256x3072_1_1_0_0_n_n.rhsBatch by decide), dif_pos (show (0 : Fin S3072x1024.rank) ∈ dot_S256x1024_S3072x1024_S256x3072_1_1_0_0_n_n.rhsNonContracting by decide)]
  rfl
theorem dot0_rhs1 (j : S256x3072.Idx) (q : dot_S256x1024_S3072x1024_S256x3072_1_1_0_0_n_n.contr.Idx) : (dot_S256x1024_S3072x1024_S256x3072_1_1_0_0_n_n.rhsIdx j q 1).val = (q ⟨0, by decide⟩).val :=
  dot_S256x1024_S3072x1024_S256x3072_1_1_0_0_n_n.rhsIdx_val_of_single rfl j q

/-- THE FIRST BODY'S PAYLOAD: the projected tokens of the block, family c, head h, lane e of token r. -/
theorem k0_pay1_apply (x0 : FVec Ideal S256x1024 .f32) (x1 : FVec Ideal S3072x1024 .bf16) (r : Fin 256) (c : Fin 3) (h : Fin 16) (e : Fin 64) :
    k0_pay1 (F := Ideal) x0 x1 (ix4 r c h e) = ∑ d : Fin 1024, x0 (ix2 r d) * x1 (ix2 (col c h e) d) := by
  unfold k0_pay1
  simp only [shapeCast_self]
  have hr := r.isLt; have hc := c.isLt; have hh := h.isLt; have he := e.isLt
  refine (shapeCast_apply _ shapeCasts_S256x3072_S256x3x16x64 (ix4 r c h e) (ix2 r (col c h e)) ?_).trans ?_
  · rw [Shape.rowMajor_val_two, Shape.rowMajor_val_four]
    show r.val * 3072 + (c.val * 1024 + h.val * 64 + e.val) = ((r.val * 3 + c.val) * 16 + h.val) * 64 + e.val
    omega
  · have hk := fun k : Fin 1024 => contrEquiv1_symm_val dot_S256x1024_S3072x1024_S256x3072_1_1_0_0_n_n 1024 rfl rfl k
    exact Cert.ReadAtIndex.matmul_zero_sum dot_S256x1024_S3072x1024_S256x3072_1_1_0_0_n_n 1024 rfl rfl none _ x1 (ix2 r (col c h e))
      (fun k => ix2 r k) (fun k => ix2 (col c h e) k)
      (fun k => funext fun a => Fin.ext (by
        match a with
        | ⟨0, _⟩ => exact dot0_lhs0 _ _
        | ⟨1, _⟩ => exact (dot0_lhs1 _ _).trans (hk k)))
      (fun k => funext fun a => Fin.ext (by
        match a with
        | ⟨0, _⟩ => exact dot0_rhs0 _ _
        | ⟨1, _⟩ => exact (dot0_rhs1 _ _).trans (hk k)))

theorem dot1_lhs0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem dot1_lhs1 (j : S1024x1024.Idx) (q : dot_S1024x1024_S1024x1024_S1024x1024_1_1_0_0_n_n.contr.Idx) : (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem dot1_rhs0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem dot1_rhs1 (j : S1024x1024.Idx) (q : dot_S1024x1024_S1024x1024_S1024x1024_1_1_0_0_n_n.contr.Idx) : (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- THE SECOND BODY'S PAYLOAD: row r of the first operand against row n of the second. -/
theorem k1_pay1_apply (x0 x1 : FVec Ideal S1024x1024 .bf16) (r n : Fin 1024) :
    k1_pay1 (F := Ideal) x0 x1 (ix2 r n) = ∑ k : Fin 1024, x0 (ix2 r k) * x1 (ix2 n k) := by
  unfold k1_pay1
  simp only [shapeCast_self]
  have hk := fun k : Fin 1024 => contrEquiv1_symm_val dot_S1024x1024_S1024x1024_S1024x1024_1_1_0_0_n_n 1024 rfl rfl k
  exact Cert.ReadAtIndex.matmul_zero_sum dot_S1024x1024_S1024x1024_S1024x1024_1_1_0_0_n_n 1024 rfl rfl none x0 x1 (ix2 r n)
    (fun k => ix2 r k) (fun k => ix2 n k)
    (fun k => funext fun a => Fin.ext (by
      match a with
      | ⟨0, _⟩ => exact dot1_lhs0 _ _
      | ⟨1, _⟩ => exact (dot1_lhs1 _ _).trans (hk k)))
    (fun k => funext fun a => Fin.ext (by
      match a with
      | ⟨0, _⟩ => exact dot1_rhs0 _ _
      | ⟨1, _⟩ => exact (dot1_rhs1 _ _).trans (hk k)))

/-- The rounding before the write-back is the identity on the extended reals. -/
theorem k0_pay2_eq (x : FVec Ideal S256x16x64 .f32) : k0_pay2 (F := Ideal) x = x := rfl

end Cert.KernelIdeal.Pay

end
-- ==== Proof.KernelRegion0.lean ====
/-
  The first kernel's region: the array it leaves.

  Point t of its 32 takes rows 256·t … 256·t + 255 of the [8192, 1024] token array and the whole [3072, 1024] weight.  The
  body projects the block into its first scratch buffer [256, 3, 16, 64] (token, family, head, lane), its loop fills the second
  scratch buffer with every token's attention over its own heads, chunk by chunk, and the block written back is that buffer
  (the rounding before the write-back is the identity on the extended reals).  So entry (r, i, e) of the block is the
  specification's attention, head i lane e, of the projection of token r of the block — a block of ONE function of the two
  arrays as the region finds them — and the 32 blocks cover the [8192, 16, 64] result.
-/
import proofs.«172339_j14577119003257_2_alg».proof.Proof.KernelIdealFrame
import proofs.«172339_j14577119003257_2_alg».proof.Proof.KernelPayloads
import Idealize.ShloMosaic.Lib.Pipeline.Value

set_option maxRecDepth 16384

noncomputable section

namespace Cert.KernelIdeal.Region0

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.KernelIdeal.GenP Cert.KernelIdeal.Pay Cert.Attn Cert.KernelIdeal.Loop0

variable (V : (c : Dev nD) → (b : Ref sig .tc) → Buf (Elt Ideal) ((c : Thread nD τ).loc b))

/-- Every token's attention over its own heads: entry (r, i, e) from row r of the token array and the weight. -/
def heads (A : S8192x1024.Idx → EReal) (B : S3072x1024.Idx → EReal) : S8192x16x64.Idx → EReal := fun y =>
  attn (fun c h e => ∑ d : Fin 1024, A (ix2 (⟨(y 0).val, (y 0).isLt⟩ : Fin 8192) d) * B (ix2 (col c h e) d))
    ⟨(y 1).val, (y 1).isLt⟩ ⟨(y 2).val, (y 2).isLt⟩

/-- The same over one block of 256 tokens. -/
def blockHeads (x0 : FVec Ideal S256x1024 .f32) (x1 : FVec Ideal S3072x1024 .bf16) : S256x16x64.Idx → EReal := fun y =>
  attn (fun c h e => ∑ d : Fin 1024, x0 (ix2 (⟨(y 0).val, (y 0).isLt⟩ : Fin 256) d) * x1 (ix2 (col c h e) d))
    ⟨(y 1).val, (y 1).isLt⟩ ⟨(y 2).val, (y 2).isLt⟩

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The first scratch buffer, written whole once, reads as what was written. -/
theorem read_scratch0 (arg4 : Memref sig .tc .vmem S256x3x16x64 .f32) (G : BufTy.Contents (Elt Ideal) arg4.view.ty)
    (inb : ∀ a, (![0, 0, 0, 0] : Fin 4 → Nat) a + S256x3x16x64.size a ≤ S256x3x16x64.size a) (P : FVec Ideal S256x3x16x64 .f32) :
    arg4.view.read (Elt Ideal) (arg4.view.writes (Elt Ideal) G [⟨Rect.unit (s := S256x3x16x64) ![0, 0, 0, 0] S256x3x16x64.size inb, P⟩]) = P := by
  rw [View.read_writes_eq_canon _ _ _ (fun y => ⟨_, List.mem_singleton_self _, View.mem_set_unit_zero hz4 inb y⟩),
    View.canon_unit_zero hz4]

/-- A slab the chunk loads: rows 32·k … 32·k + 31 of family c'. -/
theorem slab_read (P : FVec Ideal S256x3x16x64 .f32) (off : Fin 4 → Nat) (inb : ∀ a, off a + S32x1x16x64.size a ≤ S256x3x16x64.size a)
    (k : Fin k0_t1_loop.trips) (c' : Fin 3) (ho : off = ![32 * k.val, c'.val, 0, 0]) (r : Fin 32) (h : Fin 16) (e : Fin 64)
    (hr : 32 * k.val + r.val < 256) :
    View.ld (Val := Elt Ideal) (e' := .f32) P (Rect.unit (s := S256x3x16x64) off S32x1x16x64.size inb) (ix4 r (0 : Fin 1) h e)
      = P (ix4 (⟨32 * k.val + r.val, hr⟩ : Fin 256) c' h e) := by
  subst ho
  refine congrArg P (funext fun a => Fin.ext ?_)
  match a with
  | ⟨0, _⟩ => show 32 * k.val + 1 * r.val = 32 * k.val + r.val; omega
  | ⟨1, _⟩ => show c'.val + 1 * 0 = c'.val; omega
  | ⟨2, _⟩ => show 0 + 1 * h.val = h.val; omega
  | ⟨3, _⟩ => show 0 + 1 * e.val = e.val; omega

/-- The three slabs a chunk loads, as token 32·k + r's table of projections. -/
theorem slabs_read (P : FVec Ideal S256x3x16x64 .f32) (k : Fin k0_t1_loop.trips) (r : Fin 32) (hr : 32 * k.val + r.val < 256)
    (inb1 : ∀ a, k0_off1 k a + S32x1x16x64.size a ≤ S256x3x16x64.size a)
    (inb2 : ∀ a, k0_off2 k a + S32x1x16x64.size a ≤ S256x3x16x64.size a)
    (inb3 : ∀ a, k0_off3 k a + S32x1x16x64.size a ≤ S256x3x16x64.size a) :
    slabs (View.ld (Val := Elt Ideal) (e' := .f32) P (Rect.unit (s := S256x3x16x64) (k0_off1 k) S32x1x16x64.size inb1))
        (View.ld (Val := Elt Ideal) (e' := .f32) P (Rect.unit (s := S256x3x16x64) (k0_off2 k) S32x1x16x64.size inb2))
        (View.ld (Val := Elt Ideal) (e' := .f32) P (Rect.unit (s := S256x3x16x64) (k0_off3 k) S32x1x16x64.size inb3)) r
      = fun c h e => P (ix4 (⟨32 * k.val + r.val, hr⟩ : Fin 256) c h e) := by
  funext c h e
  match c with
  | ⟨0, _⟩ => exact slab_read P _ inb1 k (0 : Fin 3) (k0_off1_eq k) r h e hr
  | ⟨1, _⟩ => exact slab_read P _ inb2 k (1 : Fin 3) (k0_off2_eq k) r h e hr
  | ⟨2, _⟩ => exact slab_read P _ inb3 k (2 : Fin 3) (k0_off3_eq k) r h e hr

/-- WHAT THE BODY LEAVES in the output's staging buffer: every token's attention over its heads. -/
theorem out_eq (c : Dev nD) (i : grid0.Coords) (arg1 : Memref sig .tc .vmem S256x1024 .f32) (harg1 : arg1.IsWhole) (arg2 : Memref sig .tc .vmem S3072x1024 .bf16) (harg2 : arg2.IsWhole) (arg3 : Memref sig .tc .vmem S256x16x64 .bf16) (harg3 : arg3.IsWhole) (arg4 : Memref sig .tc .vmem S256x3x16x64 .f32) (harg4 : arg4.IsWhole) (arg5 : Memref sig .tc .vmem S256x16x64 .f32) (harg5 : arg5.IsWhole) (x0 : Vec Ideal S256x1024 .f32) (x1 : Vec Ideal S3072x1024 .bf16) :
    out0_A_2 (F := Ideal) c i arg1 harg1 arg2 harg2 arg3 harg3 arg4 harg4 arg5 harg5 x0 x1 = blockHeads x0 x1 := by
  unfold out0_A_2
  rw [View.read_writes_eq_canon _ _ _ (cover0_A_2 c i arg1 harg1 arg2 harg2 arg3 harg3 arg4 harg4 arg5 harg5 x0 x1)]
  unfold kernelRun0_A
  dsimp only
  sl_unfold_run_names
  rw [View.canon_unit_zero hz3]
  simp only [View.readAt_eq_ld, harg1.read_unread, harg2.read_unread, View.ld_unit_zero (S := S256x1024) hz2,
    View.ld_unit_zero (S := S3072x1024) hz2]
  funext y
  show afterLoop (F := Ideal) arg4 _ y = blockHeads x0 x1 y
  have hy0 : (y 0).val < 256 := (y 0).isLt
  have hKR : 32 * ((y 0).val / 32) + (y 0).val % 32 < 256 := by omega
  have hrow : (⟨32 * ((y 0).val / 32) + (y 0).val % 32, hKR⟩ : Fin 256) = ⟨(y 0).val, (y 0).isLt⟩ :=
    Fin.ext (by show 32 * ((y 0).val / 32) + (y 0).val % 32 = (y 0).val; omega)
  have hP := read_scratch0 arg4 arg4.view.junk inb_S256x3x16x64_S256x3x16x64_0_0_0_0 (k0_pay1 (F := Ideal) x0 x1)
  unfold afterLoop chunkPay
  rw [k0_pay3_apply]
  simp only [View.readAt_eq_ld]
  unfold blockHeads
  refine congrArg (fun Q => attn Q (⟨(y 1).val, (y 1).isLt⟩ : Fin 16) (⟨(y 2).val, (y 2).isLt⟩ : Fin 64)) ?_
  refine (slabs_read _ ⟨(y 0).val / 32, _⟩ ⟨(y 0).val % 32, _⟩ hKR _ _ _).trans ?_
  funext c' h e
  refine (congrFun hP (ix4 _ c' h e)).trans ?_
  refine (congrArg (fun r : Fin 256 => k0_pay1 (F := Ideal) x0 x1 (ix4 r c' h e)) hrow).trans ?_
  exact k0_pay1_apply x0 x1 _ c' h e

/-- The block indices over the grid: tokens and result move down one block of rows per point, the weight stays. -/
theorem idx_facts : ∀ t : Fin cfg0.N, win0_0.index t (0 : Fin 2) = win0_2.index t (0 : Fin 3)
    ∧ win0_0.index t (1 : Fin 2) = 0 ∧ win0_1.index t (0 : Fin 2) = 0 ∧ win0_1.index t (1 : Fin 2) = 0
    ∧ win0_2.index t (1 : Fin 3) = 0 ∧ win0_2.index t (2 : Fin 3) = 0 ∧ win0_2.index t (0 : Fin 3) ≤ 31 :=
  (by decide +kernel : ∀ t : Fin grid0.N, _)

/-- Every block of rows is some point's. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- The block's function at an index, from what the two operand blocks are on the rows it reads. -/
theorem block_point (A : S8192x1024.Idx → EReal) (B : S3072x1024.Idx → EReal) (x0 : FVec Ideal S256x1024 .f32)
    (x1 : FVec Ideal S3072x1024 .bf16) (j : S256x16x64.Idx) (y : S8192x16x64.Idx)
    (h0 : ∀ d : Fin 1024, x0 (ix2 (⟨(j 0).val, (j 0).isLt⟩ : Fin 256) d) = A (ix2 (⟨(y 0).val, (y 0).isLt⟩ : Fin 8192) d))
    (h1 : ∀ (n : Fin 3072) (d : Fin 1024), x1 (ix2 n d) = B (ix2 n d))
    (e1 : (j 1).val = (y 1).val) (e2 : (j 2).val = (y 2).val) :
    blockHeads x0 x1 j = heads A B y := by
  unfold blockHeads heads
  have ei : (⟨(j 1).val, (j 1).isLt⟩ : Fin 16) = ⟨(y 1).val, (y 1).isLt⟩ := Fin.ext e1
  have ee : (⟨(j 2).val, (j 2).isLt⟩ : Fin 64) = ⟨(y 2).val, (y 2).isLt⟩ := Fin.ext e2
  rw [ei, ee]
  refine congrArg (fun Q => attn Q _ _) (funext fun c' => funext fun h => funext fun e => ?_)
  exact Finset.sum_congr rfl fun d _ => by rw [h0 d, h1]

/-- WHAT POINT t WRITES BACK is block t of every token's attention, of the two arrays as the region finds them. -/
theorem flushed_eq (c : Dev nD) (t : Fin cfg0.N) :
    (dat0 (F := Ideal) V c).flushed 2 t
      = ((cfg0.win 2).blk t).view.read (Elt Ideal) (heads (V c main_v0) (V c main_v1)) := by
  show (cfg0.win 2).cut (grid0.coords t) ((dat0 (F := Ideal) V c).after 2 t) = _
  rw [after0_2]
  unfold outsAt0
  rw [out_eq]
  obtain ⟨e0, e1, e2, e3, e4, e5, e6⟩ := idx_facts t
  funext j
  show blockHeads (iblk0 V c 0 t) (iblk0 V c 1 t) j = heads (V c main_v0) (V c main_v1) (((cfg0.win 2).blk t).view.emb j)
  have hj0 : (j 0).val < 256 := (j 0).isLt
  refine block_point (V c main_v0) (V c main_v1) (iblk0 V c 0 t) (iblk0 V c 1 t) j _ (fun d => ?_) (fun n d => ?_) ?_ ?_
  · show V c main_v0 (((cfg0.win 0).blk t).view.emb (ix2 (⟨(j 0).val, (j 0).isLt⟩ : Fin 256) d)) = V c main_v0 _
    refine congrArg (V c main_v0) (funext fun a => Fin.ext ?_)
    match a with
    | ⟨0, _⟩ => show win0_0.index t (0 : Fin 2) * 256 + 1 * (j 0).val = win0_2.index t (0 : Fin 3) * 256 + 1 * (j 0).val; omega
    | ⟨1, _⟩ => show win0_0.index t (1 : Fin 2) * 1024 + 1 * d.val = d.val; omega
  · show V c main_v1 (((cfg0.win 1).blk t).view.emb (ix2 n d)) = V c main_v1 _
    refine congrArg (V c main_v1) (funext fun a => Fin.ext ?_)
    match a with
    | ⟨0, _⟩ => show win0_1.index t (0 : Fin 2) * 3072 + 1 * n.val = n.val; omega
    | ⟨1, _⟩ => show win0_1.index t (1 : Fin 2) * 1024 + 1 * d.val = d.val; omega
  · show (j 1).val = win0_2.index t (1 : Fin 3) * 16 + 1 * (j 1).val; omega
  · show (j 2).val = win0_2.index t (2 : Fin 3) * 64 + 1 * (j 2).val; omega

/-- An index of the result is in point t's block iff each coordinate is in the block's range on its axis. -/
theorem mem_blk (t : Fin cfg0.N) (i : S8192x16x64.Idx) :
    i ∈ ((cfg0.win 2).blk t).view.set ↔ ∀ a : Fin 3, win0_2.index t a * S256x16x64.size a ≤ (i a).val
      ∧ (i a).val < win0_2.index t a * S256x16x64.size a + S256x16x64.size a := by
  show i ∈ ((View.whole main_v3).slice (win0_2.rect t)).set ↔ _
  rw [View.set_slice_whole, Rect.mem_set_unit]
  exact Iff.rfl

/-- The 32 blocks cover the result. -/
theorem cover (i : S8192x16x64.Idx) :
    ∃ t : Fin cfg0.N, (cfg0.win 2).flush t = true ∧ i ∈ ((cfg0.win 2).blk t).view.set := by
  have hi0 : (i 0).val < 8192 := (i 0).isLt
  have hi1 : (i 1).val < 16 := (i 1).isLt
  have hi2 : (i 2).val < 64 := (i 2).isLt
  obtain ⟨t, ht⟩ := idx_onto ⟨(i 0).val / 256, by omega⟩
  have q0 : win0_2.index t (0 : Fin 3) = (i 0).val / 256 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 256 ≤ (i 0).val ∧ (i 0).val < win0_2.index t (0 : Fin 3) * 256 + 256; omega
  | ⟨1, _⟩ => show win0_2.index t (1 : Fin 3) * 16 ≤ (i 1).val ∧ (i 1).val < win0_2.index t (1 : Fin 3) * 16 + 16; omega
  | ⟨2, _⟩ => show win0_2.index t (2 : Fin 3) * 64 ≤ (i 2).val ∧ (i 2).val < win0_2.index t (2 : Fin 3) * 64 + 64; omega

/-- THE ARRAY the region leaves: every token's attention over its heads, of the two arrays it found. -/
theorem final (c : Dev nD) :
    (dat0 (F := Ideal) V c).arrAt 2 cfg0.N = heads (V c main_v0) (V c main_v1) :=
  (dat0 (F := Ideal) V c).arrAt_eq_of_cover 2 (heads (V c main_v0) (V c main_v1)) (fun t _ => flushed_eq V c t) cover

end Cert.KernelIdeal.Region0

end
-- ==== Proof.KernelRegion1.lean ====
/-
  The second kernel's region: the array it leaves.

  Point t of its eight takes rows 1024·t … 1024·t + 1023 of the [8192, 1024] operand and the whole [1024, 1024] weight and
  writes back rows 1024·t … 1024·t + 1023 of the result: entry (r, n) of the block is the dot product of row r of the
  operand block with row n of the weight.  So every block written back is a block of ONE function of the two arrays as the
  region finds them — entry (r, n) the dot product of row r with row n — and the eight blocks cover the result.
-/
import proofs.«172339_j14577119003257_2_alg».proof.Proof.KernelIdealFrame
import proofs.«172339_j14577119003257_2_alg».proof.Proof.KernelPayloads
import Idealize.ShloMosaic.Lib.Pipeline.Value

set_option maxRecDepth 16384

noncomputable section

namespace Cert.KernelIdeal.Region1

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.KernelIdeal.GenP Cert.KernelIdeal.Pay Cert.Attn

variable (V : (c : Dev nD) → (b : Ref sig .tc) → Buf (Elt Ideal) ((c : Thread nD τ).loc b))

/-- The projection of an [8192, 1024] array by a [1024, 1024] weight: entry (r, n) is row r against row n. -/
def proj (A : S8192x1024.Idx → EReal) (B : S1024x1024.Idx → EReal) : S8192x1024.Idx → EReal := fun y =>
  ∑ k : Fin 1024, A (ix2 (⟨(y 0).val, (y 0).isLt⟩ : Fin 8192) k) * B (ix2 (⟨(y 1).val, (y 1).isLt⟩ : Fin 1024) k)

theorem hz2 : (![0, 0] : Fin 2 → Nat) = fun _ => 0 := funext fun a => by fin_cases a <;> rfl

/-- The block indices over the grid: operand and result move down one block of rows per point, the weight stays. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 7 :=
  (by decide +kernel : ∀ t : Fin grid1.N, _)

/-- Every block of rows is some point's. -/
theorem idx_onto : ∀ q : Fin 8, ∃ t : Fin cfg1.N, win1_2.index t = ![q.val, 0] :=
  (by decide +kernel : ∀ q : Fin 8, ∃ t : Fin grid1.N, win1_2.index t = ![q.val, 0])

/-- The body's payload at an index of the block, from what its operands are there. -/
theorem pay_point (A : S8192x1024.Idx → EReal) (B : S1024x1024.Idx → EReal) (x0 x1 : FVec Ideal S1024x1024 .bf16)
    (j : S1024x1024.Idx) (y : S8192x1024.Idx)
    (h0 : ∀ k : Fin 1024, x0 (ix2 (⟨(j 0).val, (j 0).isLt⟩ : Fin 1024) k) = A (ix2 (⟨(y 0).val, (y 0).isLt⟩ : Fin 8192) k))
    (h1 : ∀ k : Fin 1024, x1 (ix2 (⟨(j 1).val, (j 1).isLt⟩ : Fin 1024) k) = B (ix2 (⟨(y 1).val, (y 1).isLt⟩ : Fin 1024) k)) :
    k1_pay1 (F := Ideal) x0 x1 j = proj A B y := by
  have hj : j = ix2 (⟨(j 0).val, (j 0).isLt⟩ : Fin 1024) (⟨(j 1).val, (j 1).isLt⟩ : Fin 1024) :=
    funext fun a => Fin.ext (by match a with | ⟨0, _⟩ => rfl | ⟨1, _⟩ => rfl)
  rw [hj, k1_pay1_apply]
  unfold proj
  exact Finset.sum_congr rfl fun k _ => by rw [h0 k, h1 k]

/-- WHAT POINT t WRITES BACK is block t of the projection of the two arrays as the region finds them. -/
theorem flushed_eq (c : Dev nD) (t : Fin cfg1.N) :
    (dat1 (F := Ideal) V c).flushed 2 t
      = ((cfg1.win 2).blk t).view.read (Elt Ideal) (proj (V c main_v7) (V c main_v2)) := by
  show (cfg1.win 2).cut (grid1.coords t) ((dat1 (F := Ideal) V c).after 2 t) = _
  rw [after1_2]
  unfold out1_2
  rw [View.canon_unit_zero hz2]
  simp only [View.ld_unit_zero (S := S1024x1024) hz2]
  obtain ⟨e0, e1, e2, e3, e4, e5⟩ := idx_facts t
  funext j
  show k1_pay1 (F := Ideal) (iblk1 V c 0 t) (iblk1 V c 1 t) j
      = proj (V c main_v7) (V c main_v2) (((cfg1.win 2).blk t).view.emb j)
  have hj0 : (j 0).val < 1024 := (j 0).isLt
  have hj1 : (j 1).val < 1024 := (j 1).isLt
  refine pay_point (V c main_v7) (V c main_v2) (iblk1 V c 0 t) (iblk1 V c 1 t) j _ (fun k => ?_) (fun k => ?_)
  · show V c main_v7 (((cfg1.win 0).blk t).view.emb (ix2 (⟨(j 0).val, (j 0).isLt⟩ : Fin 1024) k)) = V c main_v7 _
    refine congrArg (V c main_v7) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 1024 + 1 * k.val = k.val; omega
  · show V c main_v2 (((cfg1.win 1).blk t).view.emb (ix2 (⟨(j 1).val, (j 1).isLt⟩ : Fin 1024) k)) = V c main_v2 _
    refine congrArg (V c main_v2) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 1024 + 1 * k.val = k.val; omega

/-- An index of the result is in point t's block iff each coordinate is in the block's range on its axis. -/
theorem mem_blk (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v8).slice (win1_2.rect t)).set ↔ _
  rw [View.set_slice_whole, Rect.mem_set_unit]
  exact Iff.rfl

/-- The eight blocks cover the result. -/
theorem cover (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  obtain ⟨t, ht⟩ := idx_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- THE ARRAY the region leaves: the projection of the two arrays it found. -/
theorem final (c : Dev nD) :
    (dat1 (F := Ideal) V c).arrAt 2 cfg1.N = proj (V c main_v7) (V c main_v2) :=
  (dat1 (F := Ideal) V c).arrAt_eq_of_cover 2 (proj (V c main_v7) (V c main_v2)) (fun t _ => flushed_eq V c t) cover

end Cert.KernelIdeal.Region1

end
-- ==== Proof.Relay.lean ====
/-
  The re-layout between the two kernels, read at an index.

  The first kernel's result [8192, 16, 64] (token row, head, lane) is viewed [4, 2048, 16, 64], its head and token axes are
  exchanged, and the [4, 16, 2048, 64] array is read back row-major as [4, 2048, 1024] and then as [8192, 1024].  Row
  b·2048 + t' of the last, at column k, is therefore the entry whose flat position inside batch b is f = t'·1024 + k: head
  f / 131072, token (f / 64) mod 2048, lane f mod 64 — the first kernel's result at row b·2048 + token.
  The second kernel's result [8192, 1024] viewed [4, 2048, 1024] has row b·2048 + t' at (b, t').
-/
import Idealize.ShloMosaic.Lib.Pipeline.Value
import Idealize.ShloMosaic.Lib.ValueIdx

noncomputable section

namespace Cert.Relay

open Idealize.ShloMosaic Idealize.ShloMosaic.ValueIdx

variable {α : Type}

abbrev R8192x16x64 : Shape := ⟨3, ![8192, 16, 64]⟩
abbrev R4x2048x16x64 : Shape := ⟨4, ![4, 2048, 16, 64]⟩
abbrev R4x16x2048x64 : Shape := ⟨4, ![4, 16, 2048, 64]⟩
abbrev R4x2048x1024 : Shape := ⟨3, ![4, 2048, 1024]⟩
abbrev R8192x1024 : Shape := ⟨2, ![8192, 1024]⟩

/-- Row of the flat [8192, …] arrays that holds token t of batch b. -/
def row (b : Fin 4) (t : Fin 2048) : Fin 8192 := ⟨b.val * 2048 + t.val, by have := b.isLt; have := t.isLt; omega⟩

/-- The token, head and lane found at flat position t'·1024 + k of a batch. -/
def tokOf (t' : Fin 2048) (k : Fin 1024) : Fin 2048 := ⟨(t'.val * 1024 + k.val) / 64 % 2048, Nat.mod_lt _ (by norm_num)⟩
def headOf (t' : Fin 2048) (k : Fin 1024) : Fin 16 := ⟨(t'.val * 1024 + k.val) / 131072, by have := t'.isLt; have := k.isLt; omega⟩
def laneOf (t' : Fin 2048) (k : Fin 1024) : Fin 64 := ⟨(t'.val * 1024 + k.val) % 64, Nat.mod_lt _ (by norm_num)⟩

/-- THE RE-LAYOUT at row b·2048 + t', column k. -/
theorem relay_apply (X : R8192x16x64.Idx → α) (h1 : R8192x16x64.ShapeCasts R4x2048x16x64)
    (h2 : R4x2048x16x64.Transposes [0, 2, 1, 3] R4x16x2048x64) (h3 : R4x16x2048x64.ShapeCasts R4x2048x1024)
    (h4 : R4x2048x1024.ShapeCasts R8192x1024) (b : Fin 4) (t' : Fin 2048) (k : Fin 1024) :
    shapeCast R8192x1024 (shapeCast R4x2048x1024 (transpose R4x16x2048x64 [0, 2, 1, 3] (shapeCast R4x2048x16x64 X h1) h2) h3) h4
        (ix2 (row b t') k)
      = X (ix3 (row b (tokOf t' k)) (headOf t' k) (laneOf t' k)) := by
  have hb := b.isLt; have ht := t'.isLt; have hk := k.isLt
  refine (shapeCast_apply _ h4 (ix2 (row b t') k) (ix3 b t' k) ?_).trans ?_
  · rw [Shape.rowMajor_val_three, Shape.rowMajor_val_two]
    show (b.val * 2048 + t'.val) * 1024 + k.val = (b.val * 2048 + t'.val) * 1024 + k.val
    rfl
  refine (shapeCast_apply _ h3 (ix3 b t' k) (ix4 b (headOf t' k) (tokOf t' k) (laneOf t' k)) ?_).trans ?_
  · rw [Shape.rowMajor_val_four, Shape.rowMajor_val_three]
    show ((b.val * 16 + (t'.val * 1024 + k.val) / 131072) * 2048 + (t'.val * 1024 + k.val) / 64 % 2048) * 64
        + (t'.val * 1024 + k.val) % 64 = (b.val * 2048 + t'.val) * 1024 + k.val
    omega
  refine (transpose_apply [0, 2, 1, 3] _ h2 (ix4 b (headOf t' k) (tokOf t' k) (laneOf t' k))
    (ix4 b (tokOf t' k) (headOf t' k) (laneOf t' k)) (fun a => match a with
      | ⟨0, _⟩ => rfl
      | ⟨1, _⟩ => rfl
      | ⟨2, _⟩ => rfl
      | ⟨3, _⟩ => rfl)).trans ?_
  refine shapeCast_apply X h1 (ix4 b (tokOf t' k) (headOf t' k) (laneOf t' k)) (ix3 (row b (tokOf t' k)) (headOf t' k) (laneOf t' k)) ?_
  rw [Shape.rowMajor_val_three, Shape.rowMajor_val_four]
  show ((b.val * 2048 + (t'.val * 1024 + k.val) / 64 % 2048) * 16 + (t'.val * 1024 + k.val) / 131072) * 64 + (t'.val * 1024 + k.val) % 64
      = ((b.val * 2048 + (t'.val * 1024 + k.val) / 64 % 2048) * 16 + (t'.val * 1024 + k.val) / 131072) * 64 + (t'.val * 1024 + k.val) % 64
  rfl

/-- [4, 2048, 1024] viewed [8192, 1024]: row b·2048 + t. -/
theorem flat_apply (X : R4x2048x1024.Idx → α) (h : R4x2048x1024.ShapeCasts R8192x1024) (b : Fin 4) (t : Fin 2048) (d : Fin 1024) :
    shapeCast R8192x1024 X h (ix2 (row b t) d) = X (ix3 b t d) :=
  shapeCast_apply X h _ _ (by
    rw [Shape.rowMajor_val_three, Shape.rowMajor_val_two]
    show (b.val * 2048 + t.val) * 1024 + d.val = (b.val * 2048 + t.val) * 1024 + d.val
    rfl)

/-- [8192, 1024] viewed [4, 2048, 1024]: (b, t) is row b·2048 + t. -/
theorem unflat_apply (X : R8192x1024.Idx → α) (h : R8192x1024.ShapeCasts R4x2048x1024) (b : Fin 4) (t : Fin 2048) (n : Fin 1024) :
    shapeCast R4x2048x1024 X h (ix3 b t n) = X (ix2 (row b t) n) :=
  shapeCast_apply X h _ _ (by
    rw [Shape.rowMajor_val_two, Shape.rowMajor_val_three]
    show (b.val * 2048 + t.val) * 1024 + n.val = (b.val * 2048 + t.val) * 1024 + n.val
    rfl)

/-- Every row of the flat arrays is some token of some batch. -/
theorem exists_row (r : Fin 8192) : ∃ (b : Fin 4) (t : Fin 2048), r = row b t :=
  ⟨⟨r.val / 2048, by have := r.isLt; omega⟩, ⟨r.val % 2048, Nat.mod_lt _ (by norm_num)⟩, Fin.ext (by
    show r.val = r.val / 2048 * 2048 + r.val % 2048; omega)⟩

end Cert.Relay

end
-- ==== Proof.KernelValue.lean ====
/-
  The idealized kernel's result is the specification's function of the three arguments.

  The result buffer is the second region's array viewed [4, 2048, 1024]; that array is the projection by W_proj of the
  re-laid first region's array; the first region's array is every token's attention over its heads, of the token array
  viewed [8192, 1024] and W_qkv.  The conversions of the weights to bf16 are the identity on the extended reals.  Read at an
  index (b, t', n) this is the sum over d' of the re-laid attention output at (b, t', d') times W_proj (n, d'): the
  specification.
-/
import proofs.«172339_j14577119003257_2_alg».proof.Proof.KernelRun
import proofs.«172339_j14577119003257_2_alg».proof.Proof.KernelRegion0
import proofs.«172339_j14577119003257_2_alg».proof.Proof.KernelRegion1
import proofs.«172339_j14577119003257_2_alg».proof.Proof.Relay
import Idealize.ShloMosaic.Lib.StableHlo.Run

set_option maxRecDepth 16384

noncomputable section

namespace Cert.KernelIdeal.KValue

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen Cert.KernelIdeal.GenP Cert.Attn Cert.Relay

variable (m : (ℓ : Loc nD τ sig) → Buf (Elt Ideal) ℓ) (ρ : Dev nD → PrngReg)

/-! ## The contents at each boundary -/

/-- The token array as the first region finds it: the first argument viewed [8192, 1024]. -/
theorem entry0_tokens (c : Dev nD) :
    (V1 m ρ c main_v0 : S8192x1024.Idx → EReal)
      = shapeCast S8192x1024 (m ((c : Thread nD τ).loc main_arg0)) shapeCasts_S4x2048x1024_S8192x1024 := by
  show StableHlo.after hostOps0 (W0 m ρ c) (Proc.devRef .tc main_v0) = _
  after_results
  rfl

/-- The weight as the first region finds it: the second argument. -/
theorem entry0_weight (c : Dev nD) :
    (V1 m ρ c main_v1 : S3072x1024.Idx → EReal) = m ((c : Thread nD τ).loc main_arg1) := by
  show StableHlo.after hostOps0 (W0 m ρ c) (Proc.devRef .tc main_v1) = _
  after_results
  rfl

/-- What the first region leaves. -/
theorem exit0 (c : Dev nD) :
    (V2 m ρ c main_v3 : S8192x16x64.Idx → EReal) = Region0.heads (V1 m ρ c main_v0) (V1 m ρ c main_v1) :=
  (W2_arr m ρ c 2).trans (Region0.final (V1 m ρ) c)

/-- The operand as the second region finds it: the first region's array re-laid. -/
theorem entry1_operand (c : Dev nD) :
    (V3 m ρ c main_v7 : S8192x1024.Idx → EReal)
      = shapeCast S8192x1024 (shapeCast S4x2048x1024 (transpose S4x16x2048x64 [0, 2, 1, 3]
          (shapeCast S4x2048x16x64 (V2 m ρ c main_v3) shapeCasts_S8192x16x64_S4x2048x16x64)
          transposes_S4x2048x16x64_S4x16x2048x64_0_2_1_3) shapeCasts_S4x16x2048x64_S4x2048x1024) shapeCasts_S4x2048x1024_S8192x1024 := by
  show StableHlo.after hostOps1 (W2 m ρ c) (Proc.devRef .tc main_v7) = _
  after_results
  rfl

/-- The weight as the second region finds it: the third argument. -/
theorem entry1_weight (c : Dev nD) :
    (V3 m ρ c main_v2 : S1024x1024.Idx → EReal) = m ((c : Thread nD τ).loc main_arg2) := by
  show StableHlo.after hostOps1 (W2 m ρ c) (Proc.devRef .tc main_v2) = _
  after_results
  refine (W2_of_ne m ρ c main_v2 (fun w => by fin_cases w <;> decide)).trans ?_
  show StableHlo.after hostOps0 (W0 m ρ c) (Proc.devRef .tc main_v2) = _
  after_results
  rfl

/-- What the second region leaves. -/
theorem exit1 (c : Dev nD) :
    (V4 m ρ c main_v8 : S8192x1024.Idx → EReal) = Region1.proj (V3 m ρ c main_v7) (V3 m ρ c main_v2) :=
  (W4_arr m ρ c 2).trans (Region1.final (V3 m ρ) c)

/-- The result buffer: the second region's array viewed [4, 2048, 1024]. -/
theorem result_cast (c : Dev nD) :
    (W5 m ρ c (Proc.devRef .tc main_v9) : S4x2048x1024.Idx → EReal)
      = shapeCast S4x2048x1024 (V4 m ρ c main_v8) shapeCasts_S8192x1024_S4x2048x1024 := by
  show StableHlo.after hostOps2 (W4 m ρ c) (Proc.devRef .tc main_v9) = _
  after_results
  rfl

/-! ## Read at an index -/

theorem proj_at (A : S8192x1024.Idx → EReal) (B : S1024x1024.Idx → EReal) (r : Fin 8192) (n : Fin 1024) :
    Region1.proj A B (ix2 r n) = ∑ k : Fin 1024, A (ix2 r k) * B (ix2 n k) := rfl

theorem heads_at (A : S8192x1024.Idx → EReal) (B : S3072x1024.Idx → EReal) (r : Fin 8192) (i : Fin 16) (e : Fin 64) :
    Region0.heads A B (ix3 r i e) = attn (fun c h e' => ∑ d : Fin 1024, A (ix2 r d) * B (ix2 (col c h e') d)) i e := rfl

/-- THE KERNEL'S RESULT is the specification's function of the three arguments. -/
theorem kernel_value (c : Dev nD) :
    (W5 m ρ c (Proc.devRef .tc main_v9) : S4x2048x1024.Idx → EReal)
      = Cert.Attn.out (m ((c : Thread nD τ).loc main_arg0)) (m ((c : Thread nD τ).loc main_arg1)) (m ((c : Thread nD τ).loc main_arg2)) := by
  funext i
  obtain ⟨b, t', n, rfl⟩ : ∃ (b : Fin 4) (t' : Fin 2048) (n : Fin 1024), i = ix3 b t' n := ⟨i 0, i 1, i 2, eq_ix3 i⟩
  rw [result_cast]
  refine (unflat_apply _ _ b t' n).trans ?_
  rw [exit1, proj_at]
  unfold Cert.Attn.out
  show @Eq EReal _ _
  refine Finset.sum_congr rfl fun k _ => ?_
  rw [entry1_weight, entry1_operand]
  refine congrArg (· * m ((c : Thread nD τ).loc main_arg2) (ix2 n k)) ?_
  refine (relay_apply _ _ _ _ _ b t' k).trans ?_
  rw [exit0, heads_at]
  unfold mixed
  refine congrArg (fun Q => attn Q (headOf t' k) (laneOf t' k)) (funext fun c' => funext fun h => funext fun e => ?_)
  unfold qkvAt
  refine Finset.sum_congr rfl fun d _ => ?_
  rw [entry0_weight, entry0_tokens]
  exact congrArg (· * m ((c : Thread nD τ).loc main_arg1) (ix2 (col c' h e) d)) (flat_apply _ _ b (tokOf t' k) d)

/-- THE RUN: the result buffer ends holding the specification's function of the arguments, which end as launched. -/
theorem run : θ_run defs (onTc (τ := τ) (main (F := Ideal))) ⟨m, fun _ => 0, ρ⟩ (fun r => ∀ c : Dev nD,
      r.2.mem ((c.tc : Thread nD τ).loc main_v9)
        = Cert.Attn.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_value m ρ c), (h c).2⟩) (Cert.KernelIdeal.KRun.run_result m ρ)

end Cert.KernelIdeal.KValue

end
-- ==== Proof.RefSide.lean ====
/-
  The reference, read one operation at a time, computes the specification's function of the arguments.

  Its projected token at (b, c, t, h, e) is the dot product of token (b, t) with row c·1024 + h·64 + e of W_qkv; the
  three slices are the query, key and value families; the scores, their row maximum (the maximum with −∞ that follows
  changes nothing), the exponentials, the normaliser, the weights and the weighted sum of the values are the
  specification's, term by term; the transpose and reshape place head f / 131072, token (f / 64) mod 2048, lane
  f mod 64 at flat position f of a batch; the last dot product is the projection by W_proj.
-/
import proofs.«172339_j14577119003257_2_alg».proof.Proof.Gen.ReferenceIdeal.Read
import proofs.«172339_j14577119003257_2_alg».proof.Proof.AttnSpec

noncomputable section

namespace Cert.ReferenceIdeal.RefValue

open Idealize.ShloMosaic Idealize.ShloMosaic.ValueIdx Cert.Attn Cert.ReferenceIdeal Cert.ReferenceIdeal.Gen Cert.ReferenceIdeal.Read

variable (x0 : (⟨S4x2048x1024, .f32⟩ : BufTy).Contents (Elt Ideal)) (x1 : (⟨S3072x1024, .f32⟩ : BufTy).Contents (Elt Ideal))
  (x2 : (⟨S1024x1024, .f32⟩ : BufTy).Contents (Elt Ideal))

/-- The projected token, after the reshape to [4, 2048, 3, 16, 64] and the transpose that brings the family axis forward. -/
theorem v2_read (b : Fin 4) (c : Fin 3) (t : Fin 2048) (h : Fin 16) (e : Fin 64) :
    val_main_v2 (F := Ideal) x0 x1 (ix5 b c t h e) = qkvAt x0 x1 b t c h e := by
  rw [val_main_v2_apply, val_main_v1_apply, val_main_v0_apply]
  unfold qkvAt
  refine Finset.sum_congr rfl fun k _ => ?_
  have hb := b.isLt; have hc := c.isLt; have ht := t.isLt; have hh := h.isLt; have he := e.isLt
  have e1 : lidx_main_v0 (idx_main_v1 (idx_main_v2 (ix5 b c t h e))) k = ix3 b t k := by
    funext a; apply Fin.ext
    match a with
    | ⟨0, _⟩ => show ((((b.val * 2048 + t.val) * 3 + c.val) * 16 + h.val) * 64 + e.val) / 6291456 = b.val; omega
    | ⟨1, _⟩ => show ((((b.val * 2048 + t.val) * 3 + c.val) * 16 + h.val) * 64 + e.val) / 3072 % 2048 = t.val; omega
    | ⟨2, _⟩ => rfl
  have e2 : ridx_main_v0 (idx_main_v1 (idx_main_v2 (ix5 b c t h e))) k = ix2 (col c h e) k := by
    funext a; apply Fin.ext
    match a with
    | ⟨0, _⟩ => show ((((b.val * 2048 + t.val) * 3 + c.val) * 16 + h.val) * 64 + e.val) % 3072 = c.val * 1024 + h.val * 64 + e.val; omega
    | ⟨1, _⟩ => rfl
  rw [e1, e2]

/-- The query family. -/
theorem v4_read (b : Fin 4) (t : Fin 2048) (h : Fin 16) (e : Fin 64) :
    val_main_v4 (F := Ideal) x0 x1 (ix4 b t h e) = qkvAt x0 x1 b t 0 h e := by
  rw [val_main_v4_apply, val_main_v3_apply]
  have hb := b.isLt; have ht := t.isLt; have hh := h.isLt; have he := e.isLt
  have e1 : idx_main_v3 (idx_main_v4 (ix4 b t h e)) = ix5 b (0 : Fin 3) t h e := by
    funext a; apply Fin.ext
    match a with
    | ⟨0, _⟩ => show (((b.val * 2048 + t.val) * 16 + h.val) * 64 + e.val) / 2097152 = b.val; omega
    | ⟨1, _⟩ => rfl
    | ⟨2, _⟩ => show (((b.val * 2048 + t.val) * 16 + h.val) * 64 + e.val) / 1024 % 2048 = t.val; omega
    | ⟨3, _⟩ => show (((b.val * 2048 + t.val) * 16 + h.val) * 64 + e.val) / 64 % 16 = h.val; omega
    | ⟨4, _⟩ => show (((b.val * 2048 + t.val) * 16 + h.val) * 64 + e.val) % 64 = e.val; omega
  rw [e1, v2_read]

/-- The key family. -/
theorem v6_read (b : Fin 4) (t : Fin 2048) (h : Fin 16) (e : Fin 64) :
    val_main_v6 (F := Ideal) x0 x1 (ix4 b t h e) = qkvAt x0 x1 b t 1 h e := by
  rw [val_main_v6_apply, val_main_v5_apply]
  have hb := b.isLt; have ht := t.isLt; have hh := h.isLt; have he := e.isLt
  have e1 : idx_main_v5 (idx_main_v6 (ix4 b t h e)) = ix5 b (1 : Fin 3) t h e := by
    funext a; apply Fin.ext
    match a with
    | ⟨0, _⟩ => show (((b.val * 2048 + t.val) * 16 + h.val) * 64 + e.val) / 2097152 = b.val; omega
    | ⟨1, _⟩ => rfl
    | ⟨2, _⟩ => show (((b.val * 2048 + t.val) * 16 + h.val) * 64 + e.val) / 1024 % 2048 = t.val; omega
    | ⟨3, _⟩ => show (((b.val * 2048 + t.val) * 16 + h.val) * 64 + e.val) / 64 % 16 = h.val; omega
    | ⟨4, _⟩ => show (((b.val * 2048 + t.val) * 16 + h.val) * 64 + e.val) % 64 = e.val; omega
  rw [e1, v2_read]

/-- The value family. -/
theorem v8_read (b : Fin 4) (t : Fin 2048) (h : Fin 16) (e : Fin 64) :
    val_main_v8 (F := Ideal) x0 x1 (ix4 b t h e) = qkvAt x0 x1 b t 2 h e := by
  rw [val_main_v8_apply, val_main_v7_apply]
  have hb := b.isLt; have ht := t.isLt; have hh := h.isLt; have he := e.isLt
  have e1 : idx_main_v7 (idx_main_v8 (ix4 b t h e)) = ix5 b (2 : Fin 3) t h e := by
    funext a; apply Fin.ext
    match a with
    | ⟨0, _⟩ => show (((b.val * 2048 + t.val) * 16 + h.val) * 64 + e.val) / 2097152 = b.val; omega
    | ⟨1, _⟩ => rfl
    | ⟨2, _⟩ => show (((b.val * 2048 + t.val) * 16 + h.val) * 64 + e.val) / 1024 % 2048 = t.val; omega
    | ⟨3, _⟩ => show (((b.val * 2048 + t.val) * 16 + h.val) * 64 + e.val) / 64 % 16 = h.val; omega
    | ⟨4, _⟩ => show (((b.val * 2048 + t.val) * 16 + h.val) * 64 + e.val) % 64 = e.val; omega
  rw [e1, v2_read]

/-- The scaled scores. -/
theorem v11_read (b : Fin 4) (t : Fin 2048) (i j : Fin 16) :
    val_main_v11 (F := Ideal) x0 x1 (ix4 b t i j) = score (qkvAt x0 x1 b t) i j := by
  rw [val_main_v11_apply, val_main_v9_apply, val_main_v10_apply, val_main_cst_apply]
  unfold score
  refine congrArg (· * cS) (Finset.sum_congr rfl fun k _ => ?_)
  have e1 : lidx_main_v9 (ix4 b t i j) k = ix4 b t i k :=
    funext fun a => Fin.ext (by match a with | ⟨0, _⟩ => rfl | ⟨1, _⟩ => rfl | ⟨2, _⟩ => rfl | ⟨3, _⟩ => rfl)
  have e2 : ridx_main_v9 (ix4 b t i j) k = ix4 b t j k :=
    funext fun a => Fin.ext (by match a with | ⟨0, _⟩ => rfl | ⟨1, _⟩ => rfl | ⟨2, _⟩ => rfl | ⟨3, _⟩ => rfl)
  rw [e1, e2, v4_read, v6_read]

/-- The row maximum: the fold of max from −∞ over the sixteen key heads. -/
theorem v12_read (b : Fin 4) (t : Fin 2048) (i : Fin 16) :
    val_main_v12 (F := Ideal) x0 x1 (ix3 b t i) = rowMax (qkvAt x0 x1 b t) i := by
  unfold val_main_v12
  have hR : S4x2048x16x16.Reduces [3] S4x2048x16 := by decide
  rw [Host.reduce_eq_fold_single FloatOps.maximumf _ _ reducesTo_S4x2048x16x16_S4x2048x16_d3 hR h_S_]
  unfold rowMax
  have hf : (val_main_v11 (F := Ideal) x0 x1 ∘ hR.lift (ix3 b t i)) = fun j : Fin 16 => score (qkvAt x0 x1 b t) i j :=
    funext fun k => by
      show val_main_v11 (F := Ideal) x0 x1 (hR.lift (ix3 b t i) k) = _
      have e1 : hR.lift (ix3 b t i) k = ix4 b t i (⟨k.val, k.isLt⟩ : Fin 16) :=
        funext fun a => Fin.ext (by match a with | ⟨0, _⟩ => rfl | ⟨1, _⟩ => rfl | ⟨2, _⟩ => rfl | ⟨3, _⟩ => rfl)
      rw [e1, v11_read]
      rfl
  rw [hf]
  rfl

/-- The maximum with −∞ that follows the reduction changes nothing: a fold of max from −∞ is at least −∞. -/
theorem v14_read (b : Fin 4) (t : Fin 2048) (i : Fin 16) :
    val_main_v14 (F := Ideal) x0 x1 (ix3 b t i) = rowMax (qkvAt x0 x1 b t) i := by
  rw [val_main_v14_apply, val_main_v13_apply, val_main_cst_1_apply, v12_read]
  show max negInf (rowMax (qkvAt x0 x1 b t) i) = _
  refine max_eq_right ?_
  unfold rowMax
  exact (Finset.le_fold_max _).mpr (Or.inl le_rfl)

/-- exp (score − row maximum). -/
theorem v18_read (b : Fin 4) (t : Fin 2048) (i j : Fin 16) :
    val_main_v18 (F := Ideal) x0 x1 (ix4 b t i j) = expo (qkvAt x0 x1 b t) i j := by
  rw [val_main_v18_apply, val_main_v17_apply, val_main_v16_apply, val_main_v15_apply, v11_read]
  have e1 : idx_main_v15 (idx_main_v16 (ix4 b t i j)) = ix3 b t i :=
    funext fun a => Fin.ext (by match a with | ⟨0, _⟩ => rfl | ⟨1, _⟩ => rfl | ⟨2, _⟩ => rfl)
  rw [e1, v14_read]
  rfl

/-- The normaliser. -/
theorem v19_read (b : Fin 4) (t : Fin 2048) (i : Fin 16) :
    val_main_v19 (F := Ideal) x0 x1 (ix3 b t i) = denom (qkvAt x0 x1 b t) i := by
  rw [val_main_v19_apply, val_main_cst_2_apply]
  unfold denom
  show Ideal.ofBits .f32 0x00000000#32 + _ = _
  rw [Ideal.ofBits_zero_f32, zero_add]
  refine Finset.sum_congr rfl fun k _ => ?_
  have e1 : idx_main_v19 (ix3 b t i) k = ix4 b t i k :=
    funext fun a => Fin.ext (by match a with | ⟨0, _⟩ => rfl | ⟨1, _⟩ => rfl | ⟨2, _⟩ => rfl | ⟨3, _⟩ => rfl)
  rw [e1, v18_read]

/-- The weights. -/
theorem v22_read (b : Fin 4) (t : Fin 2048) (i j : Fin 16) :
    val_main_v22 (F := Ideal) x0 x1 (ix4 b t i j)
      = Ideal.div (expo (qkvAt x0 x1 b t) i j) (denom (qkvAt x0 x1 b t) i) := by
  rw [val_main_v22_apply, val_main_v21_apply, val_main_v20_apply, v18_read]
  have e1 : idx_main_v20 (idx_main_v21 (ix4 b t i j)) = ix3 b t i :=
    funext fun a => Fin.ext (by match a with | ⟨0, _⟩ => rfl | ⟨1, _⟩ => rfl | ⟨2, _⟩ => rfl)
  rw [e1, v19_read]
  rfl

/-- One token's attention over its heads. -/
theorem v23_read (b : Fin 4) (t : Fin 2048) (i : Fin 16) (e : Fin 64) :
    val_main_v23 (F := Ideal) x0 x1 (ix4 b t i e) = attn (qkvAt x0 x1 b t) i e := by
  rw [val_main_v23_apply]
  unfold attn
  refine Finset.sum_congr rfl fun k _ => ?_
  have e1 : lidx_main_v23 (ix4 b t i e) k = ix4 b t i k :=
    funext fun a => Fin.ext (by match a with | ⟨0, _⟩ => rfl | ⟨1, _⟩ => rfl | ⟨2, _⟩ => rfl | ⟨3, _⟩ => rfl)
  have e2 : ridx_main_v23 (ix4 b t i e) k = ix4 b t k e :=
    funext fun a => Fin.ext (by match a with | ⟨0, _⟩ => rfl | ⟨1, _⟩ => rfl | ⟨2, _⟩ => rfl | ⟨3, _⟩ => rfl)
  rw [e1, e2, v22_read, v8_read]

/-- The re-laid attention output. -/
theorem v25_read (b : Fin 4) (t' : Fin 2048) (d' : Fin 1024) :
    val_main_v25 (F := Ideal) x0 x1 (ix3 b t' d') = mixed x0 x1 b t' d' := by
  rw [val_main_v25_apply, val_main_v24_apply]
  have hb := b.isLt; have ht := t'.isLt; have hd := d'.isLt
  have e1 : idx_main_v24 (idx_main_v25 (ix3 b t' d'))
      = ix4 b (⟨(t'.val * 1024 + d'.val) / 64 % 2048, Nat.mod_lt _ (by norm_num)⟩ : Fin 2048)
          (⟨(t'.val * 1024 + d'.val) / 131072, by omega⟩ : Fin 16)
          (⟨(t'.val * 1024 + d'.val) % 64, Nat.mod_lt _ (by norm_num)⟩ : Fin 64) := by
    funext a; apply Fin.ext
    match a with
    | ⟨0, _⟩ => show ((b.val * 2048 + t'.val) * 1024 + d'.val) / 2097152 = b.val; omega
    | ⟨1, _⟩ => show ((b.val * 2048 + t'.val) * 1024 + d'.val) / 64 % 2048 = (t'.val * 1024 + d'.val) / 64 % 2048; omega
    | ⟨2, _⟩ => show ((b.val * 2048 + t'.val) * 1024 + d'.val) / 131072 % 16 = (t'.val * 1024 + d'.val) / 131072; omega
    | ⟨3, _⟩ => show ((b.val * 2048 + t'.val) * 1024 + d'.val) % 64 = (t'.val * 1024 + d'.val) % 64; omega
  rw [e1, v23_read]
  rfl

/-- THE REFERENCE'S RESULT is the specification's function of the three arguments. -/
theorem result_eq : val_main_v26 (F := Ideal) x0 x1 x2 = Cert.Attn.out x0 x1 x2 := by
  funext i
  obtain ⟨b, t', n, rfl⟩ : ∃ (b : Fin 4) (t' : Fin 2048) (n : Fin 1024), i = ix3 b t' n := ⟨i 0, i 1, i 2, eq_ix3 i⟩
  rw [val_main_v26_apply]
  unfold Cert.Attn.out
  refine Finset.sum_congr rfl fun k _ => ?_
  have e1 : lidx_main_v26 (ix3 b t' n) k = ix3 b t' k :=
    funext fun a => Fin.ext (by match a with | ⟨0, _⟩ => rfl | ⟨1, _⟩ => rfl | ⟨2, _⟩ => rfl)
  have e2 : ridx_main_v26 (ix3 b t' n) k = ix2 n k :=
    funext fun a => Fin.ext (by match a with | ⟨0, _⟩ => rfl | ⟨1, _⟩ => rfl)
  rw [e1, e2, v25_read]

end Cert.ReferenceIdeal.RefValue

end
-- ==== Proof.lean ====
/-
  The certificate of a fused attention block against its jnp reference, over the extended reals.

  Both programs take x : [4, 2048, 1024], W_qkv : [3072, 1024] and W_proj : [1024, 1024].  Each token is projected to
  queries, keys and values of 16 heads of 64 lanes; within a token the 16 heads attend to each other (scores times 1/8,
  exp (s − row maximum) / row sum, weighted sum of the values); the per-token results are laid out [4, 16, 2048, 64], read
  back as [4, 2048, 1024], and projected by W_proj.  The specification (Proof/AttnSpec.lean) states this once.

  The kernel does it in two grids: the first projects a block of 256 tokens into a scratch buffer and fills a second
  scratch buffer with the tokens' attention 32 at a time in a counted loop; the second is the projection by W_proj in
  blocks of 1024 rows; the re-layout between them is host code.  Its sums are the same sums in another order and its
  roundings to bf16 are the identity on the extended reals, so no law beyond the commutative monoid of + is needed, and
  the precondition (finite inputs) is never opened.  The reference is one straight host program.

  The two runs end at the same function of the arguments (Proof/KernelValue.lean, Proof/RefSide.lean); the idealization
  rewrote no operation of the kernel.
-/
import proofs.«172339_j14577119003257_2_alg».proof.Defs
import proofs.«172339_j14577119003257_2_alg».proof.Proof.Gen.Kernel
import proofs.«172339_j14577119003257_2_alg».proof.Proof.Gen.KernelIdeal
import proofs.«172339_j14577119003257_2_alg».proof.Proof.Gen.ReferenceIdeal
import proofs.«172339_j14577119003257_2_alg».proof.Proof.Gen.Pre_finite_inputs
import proofs.«172339_j14577119003257_2_alg».proof.Proof.KernelFrame
import proofs.«172339_j14577119003257_2_alg».proof.Proof.KernelIdealFrame
import proofs.«172339_j14577119003257_2_alg».proof.Proof.KernelValue
import proofs.«172339_j14577119003257_2_alg».proof.Proof.RefSide
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.GenP.frame m ρ

/-- So does its reading over the extended reals. -/
theorem frame_kernelIdeal : Cert.frame_KernelIdeal := fun m ρ _ => Cert.KernelIdeal.GenP.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function of them in the result. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
